-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x64 : Shape := ⟨3, ![8, 2048, 64]⟩
abbrev S8x2048x2048 : Shape := ⟨3, ![8, 2048, 2048]⟩
abbrev S_ : Shape := ⟨0, ![]⟩

class Facts : Prop where
  bcast_S_S8x2048x64 : S_.BroadcastsInDim S8x2048x64 (![] : Fin 0 → Fin S8x2048x64.rank)
  reducesTo_S8x2048x64_S_d0_1_2 : S8x2048x64.ReducesTo [0, 1, 2] S_
  h_S_ : 0 < S_.numel
  bcast_S_S8x2048x2048 : S_.BroadcastsInDim S8x2048x2048 (![] : Fin 0 → Fin S8x2048x2048.rank)
  reducesTo_S8x2048x2048_S_d0_1_2 : S8x2048x2048.ReducesTo [0, 1, 2] S_

variable [Facts]

def fn {F : FTy → Type} [FloatOps F] (main_arg0 : FVec F S8x2048x64 .f32) (main_arg1 : FVec F S8x2048x2048 .f32) : IVec S_ 1 :=
  let main_v0 : FVec F S8x2048x64 .f32 := Host.absf main_arg0
  let main_cst : FVec F S_ .f32 := constant S_ .f32 0x7F800000#32
  let main_v1 : FVec F S8x2048x64 .f32 := broadcastInDim S8x2048x64 ![] bcast_S_S8x2048x64 main_cst
  let main_v2 : IVec S8x2048x64 1 := cmpf .olt main_v0 main_v1
  let main_c : IVec S_ 1 := constantI S_ 1 1#1
  let main_v3 : IVec S_ 1 := (fun x v => Host.reduce IntOp.andi x v reducesTo_S8x2048x64_S_d0_1_2 h_S_) main_v2 main_c
  let main_v4 : FVec F S8x2048x2048 .f32 := Host.absf main_arg1
  let main_cst_0 : FVec F S_ .f32 := constant S_ .f32 0x7F800000#32
  let main_v5 : FVec F S8x2048x2048 .f32 := broadcastInDim S8x2048x2048 ![] bcast_S_S8x2048x2048 main_cst_0
  let main_v6 : IVec S8x2048x2048 1 := cmpf .olt main_v4 main_v5
  let main_c_1 : IVec S_ 1 := constantI S_ 1 1#1
  let main_v7 : IVec S_ 1 := (fun x v => Host.reduce IntOp.andi x v reducesTo_S8x2048x2048_S_d0_1_2 h_S_) main_v6 main_c_1
  let main_v8 : IVec S_ 1 := andi main_v3 main_v7
  main_v8
-- ==== Kernel.lean ====
abbrev S8x2048x64 : Shape := ⟨3, ![8, 2048, 64]⟩
abbrev S8x2048x2048 : Shape := ⟨3, ![8, 2048, 2048]⟩
abbrev S1x2048x64 : Shape := ⟨3, ![1, 2048, 64]⟩
abbrev S1x256x2048 : Shape := ⟨3, ![1, 256, 2048]⟩
abbrev S2048x64 : Shape := ⟨2, ![2048, 64]⟩
abbrev S256x2048 : Shape := ⟨2, ![256, 2048]⟩
abbrev S256x64 : Shape := ⟨2, ![256, 64]⟩
abbrev S1x256x64 : Shape := ⟨3, ![1, 256, 64]⟩

abbrev nBuf : Space → Nat
  | .hbm => 3
  | .vmem => 20
  | .smem => 0
  | _ => 0

abbrev bufTy : (tb : Table) → Fin (tcTables nBuf tb) → BufTy
  | .hbm, ⟨0, _⟩ => ⟨S8x2048x64, .f32⟩
  | .hbm, ⟨1, _⟩ => ⟨S8x2048x2048, .f32⟩
  | .hbm, ⟨2, _⟩ => ⟨S8x2048x64, .f32⟩
  | .local _ .vmem, ⟨0, _⟩ => ⟨S1x2048x64, .f32⟩
  | .local _ .vmem, ⟨1, _⟩ => ⟨S1x2048x64, .f32⟩
  | .local _ .vmem, ⟨2, _⟩ => ⟨S1x256x2048, .f32⟩
  | .local _ .vmem, ⟨3, _⟩ => ⟨S1x256x2048, .f32⟩
  | .local _ .vmem, ⟨4, _⟩ => ⟨S1x256x2048, .f32⟩
  | .local _ .vmem, ⟨5, _⟩ => ⟨S1x256x2048, .f32⟩
  | .local _ .vmem, ⟨6, _⟩ => ⟨S1x256x2048, .f32⟩
  | .local _ .vmem, ⟨7, _⟩ => ⟨S1x256x2048, .f32⟩
  | .local _ .vmem, ⟨8, _⟩ => ⟨S1x256x2048, .f32⟩
  | .local _ .vmem, ⟨9, _⟩ => ⟨S1x256x2048, .f32⟩
  | .local _ .vmem, ⟨10, _⟩ => ⟨S1x256x2048, .f32⟩
  | .local _ .vmem, ⟨11, _⟩ => ⟨S1x256x2048, .f32⟩
  | .local _ .vmem, ⟨12, _⟩ => ⟨S1x256x2048, .f32⟩
  | .local _ .vmem, ⟨13, _⟩ => ⟨S1x256x2048, .f32⟩
  | .local _ .vmem, ⟨14, _⟩ => ⟨S1x256x2048, .f32⟩
  | .local _ .vmem, ⟨15, _⟩ => ⟨S1x256x2048, .f32⟩
  | .local _ .vmem, ⟨16, _⟩ => ⟨S1x256x2048, .f32⟩
  | .local _ .vmem, ⟨17, _⟩ => ⟨S1x256x2048, .f32⟩
  | .local _ .vmem, ⟨18, _⟩ => ⟨S1x2048x64, .f32⟩
  | .local _ .vmem, ⟨19, _⟩ => ⟨S1x2048x64, .f32⟩
  | _, _ => ⟨S8x2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨2, ![8, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg1 c8_i32
  let c0_i32 : BitVec 32 := 0#32
  let v1 : BitVec 32 := Scalar.addi v0 c0_i32
  let c0_i32_0 : BitVec 32 := 0#32
  let c0_i32_1 : BitVec 32 := 0#32
  ![arg0.toNat, v1.toNat, c0_i32_0.toNat]

def cc0_transform_2 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg1 c8_i32
  let c1_i32 : BitVec 32 := 1#32
  let v1 : BitVec 32 := Scalar.addi v0 c1_i32
  let c0_i32 : BitVec 32 := 0#32
  let c0_i32_0 : BitVec 32 := 0#32
  ![arg0.toNat, v1.toNat, c0_i32.toNat]

def cc0_transform_3 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg1 c8_i32
  let c2_i32 : BitVec 32 := 2#32
  let v1 : BitVec 32 := Scalar.addi v0 c2_i32
  let c0_i32 : BitVec 32 := 0#32
  let c0_i32_0 : BitVec 32 := 0#32
  ![arg0.toNat, v1.toNat, c0_i32.toNat]

def cc0_transform_4 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg1 c8_i32
  let c3_i32 : BitVec 32 := 3#32
  let v1 : BitVec 32 := Scalar.addi v0 c3_i32
  let c0_i32 : BitVec 32 := 0#32
  let c0_i32_0 : BitVec 32 := 0#32
  ![arg0.toNat, v1.toNat, c0_i32.toNat]

def cc0_transform_5 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg1 c8_i32
  let c4_i32 : BitVec 32 := 4#32
  let v1 : BitVec 32 := Scalar.addi v0 c4_i32
  let c0_i32 : BitVec 32 := 0#32
  let c0_i32_0 : BitVec 32 := 0#32
  ![arg0.toNat, v1.toNat, c0_i32.toNat]

def cc0_transform_6 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg1 c8_i32
  let c5_i32 : BitVec 32 := 5#32
  let v1 : BitVec 32 := Scalar.addi v0 c5_i32
  let c0_i32 : BitVec 32 := 0#32
  let c0_i32_0 : BitVec 32 := 0#32
  ![arg0.toNat, v1.toNat, c0_i32.toNat]

def cc0_transform_7 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg1 c8_i32
  let c6_i32 : BitVec 32 := 6#32
  let v1 : BitVec 32 := Scalar.addi v0 c6_i32
  let c0_i32 : BitVec 32 := 0#32
  let c0_i32_0 : BitVec 32 := 0#32
  ![arg0.toNat, v1.toNat, c0_i32.toNat]

def cc0_transform_8 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg1 c8_i32
  let c7_i32 : BitVec 32 := 7#32
  let v1 : BitVec 32 := Scalar.addi v0 c7_i32
  let c0_i32 : BitVec 32 := 0#32
  let c0_i32_0 : BitVec 32 := 0#32
  ![arg0.toNat, v1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x2048x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x2048x64 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

class Facts₀ : Prop where
  inb_S1x2048x64_S1x2048x64_0_0_0 : ∀ a, (![0, 0, 0] : Fin 3 → Nat) a + S1x2048x64.size a ≤ S1x2048x64.size a
  h_S1x2048x64 : 0 < S1x2048x64.numel
  shapeCasts_S1x2048x64_S2048x64 : S1x2048x64.ShapeCasts S2048x64
  inb_S1x256x2048_S1x256x2048_0_0_0 : ∀ a, (![0, 0, 0] : Fin 3 → Nat) a + S1x256x2048.size a ≤ S1x256x2048.size a
  h_S1x256x2048 : 0 < S1x256x2048.numel
  shapeCasts_S1x256x2048_S256x2048 : S1x256x2048.ShapeCasts S256x2048
  inb_S1x2048x64_S1x256x64_0_0_0 : ∀ a, (![0, 0, 0] : Fin 3 → Nat) a + S1x256x64.size a ≤ S1x2048x64.size a
  h_S1x256x64 : 0 < S1x256x64.numel
  shapeCasts_S1x256x64_S256x64 : S1x256x64.ShapeCasts S256x64
  shapeCasts_S256x64_S1x256x64 : S256x64.ShapeCasts S1x256x64
  inb_S1x2048x64_S1x256x64_0_256_0 : ∀ a, (![0, 256, 0] : Fin 3 → Nat) a + S1x256x64.size a ≤ S1x2048x64.size a
  inb_S1x2048x64_S1x256x64_0_512_0 : ∀ a, (![0, 512, 0] : Fin 3 → Nat) a + S1x256x64.size a ≤ S1x2048x64.size a
  inb_S1x2048x64_S1x256x64_0_768_0 : ∀ a, (![0, 768, 0] : Fin 3 → Nat) a + S1x256x64.size a ≤ S1x2048x64.size a
  inb_S1x2048x64_S1x256x64_0_1024_0 : ∀ a, (![0, 1024, 0] : Fin 3 → Nat) a + S1x256x64.size a ≤ S1x2048x64.size a
  inb_S1x2048x64_S1x256x64_0_1280_0 : ∀ a, (![0, 1280, 0] : Fin 3 → Nat) a + S1x256x64.size a ≤ S1x2048x64.size a
  inb_S1x2048x64_S1x256x64_0_1536_0 : ∀ a, (![0, 1536, 0] : Fin 3 → Nat) a + S1x256x64.size a ≤ S1x2048x64.size a
  inb_S1x2048x64_S1x256x64_0_1792_0 : ∀ a, (![0, 1792, 0] : Fin 3 → Nat) a + S1x256x64.size a ≤ S1x2048x64.size a
  dot_S256x2048_S2048x64_S256x64_1_0_0_1_n_n_wf : DotDims.WF S256x2048 S2048x64 S256x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x64.size a ≤ S8x2048x64.size a
  hwx0_0 : ∀ i : grid0.Coords, EltTy.bits .f32 = 32 ∨ (Rect.block (s := S8x2048x64) S1x2048x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x256x2048.size a ≤ S8x2048x2048.size a
  hwx0_1 : ∀ i : grid0.Coords, EltTy.bits .f32 = 32 ∨ (Rect.block (s := S8x2048x2048) S1x256x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x256x2048.size a ≤ S8x2048x2048.size a
  hwx0_2 : ∀ i : grid0.Coords, EltTy.bits .f32 = 32 ∨ (Rect.block (s := S8x2048x2048) S1x256x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x256x2048.size a ≤ S8x2048x2048.size a
  hwx0_3 : ∀ i : grid0.Coords, EltTy.bits .f32 = 32 ∨ (Rect.block (s := S8x2048x2048) S1x256x2048.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x256x2048.size a ≤ S8x2048x2048.size a
  hwx0_4 : ∀ i : grid0.Coords, EltTy.bits .f32 = 32 ∨ (Rect.block (s := S8x2048x2048) S1x256x2048.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x256x2048.size a ≤ S8x2048x2048.size a
  hwx0_5 : ∀ i : grid0.Coords, EltTy.bits .f32 = 32 ∨ (Rect.block (s := S8x2048x2048) S1x256x2048.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x256x2048.size a ≤ S8x2048x2048.size a
  hwx0_6 : ∀ i : grid0.Coords, EltTy.bits .f32 = 32 ∨ (Rect.block (s := S8x2048x2048) S1x256x2048.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x256x2048.size a ≤ S8x2048x2048.size a
  hwx0_7 : ∀ i : grid0.Coords, EltTy.bits .f32 = 32 ∨ (Rect.block (s := S8x2048x2048) S1x256x2048.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x256x2048.size a ≤ S8x2048x2048.size a
  hwx0_8 : ∀ i : grid0.Coords, EltTy.bits .f32 = 32 ∨ (Rect.block (s := S8x2048x2048) S1x256x2048.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1x2048x64.size a ≤ S8x2048x64.size a
  hwx0_9 : ∀ i : grid0.Coords, EltTy.bits .f32 = 32 ∨ (Rect.block (s := S8x2048x64) S1x2048x64.size (cc0_transform_9 i) (hinb0_9 i)).WholeWords (EltTy.packing .f32)

variable [Facts₀]

def dot_S256x2048_S2048x64_S256x64_1_0_0_1_n_n : DotDims S256x2048 S2048x64 S256x64 where
  lhsContracting := [1]
  rhsContracting := [0]
  lhsNonContracting := [0]
  rhsNonContracting := [1]
  lhsBatch := []
  rhsBatch := []
  wf := dot_S256x2048_S2048x64_S256x64_1_0_0_1_n_n_wf

abbrev win0_0 : Pipeline.Window sig grid0 :=
  Pipeline.Window.ofSpec (Memref.whole main_arg0) S1x2048x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x256x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S1x256x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg1) S1x256x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg1) S1x256x2048.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg1) S1x256x2048.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_arg1) S1x256x2048.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_arg1) S1x256x2048.size cc0_transform_7 reads0_7 false false 2 stage0_7 sem0_7
    hrank0 hreads0_7 hinb0_7 nbuf0_7 (Memref.isWhole_whole _) hwx0_7 hstage0_7

abbrev win0_8 : Pipeline.Window sig grid0 :=
  Pipeline.Window.ofSpec (Memref.whole main_arg1) S1x256x2048.size cc0_transform_8 reads0_8 false false 2 stage0_8 sem0_8
    hrank0 hreads0_8 hinb0_8 nbuf0_8 (Memref.isWhole_whole _) hwx0_8 hstage0_8

abbrev win0_9 : Pipeline.Window sig grid0 :=
  Pipeline.Window.ofSpec (Memref.whole main_v0) S1x2048x64.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S8x2048x64 : Shape := ⟨3, ![8, 2048, 64]⟩
abbrev S8x2048x2048 : Shape := ⟨3, ![8, 2048, 2048]⟩

abbrev nBuf : Space → Nat
  | .hbm => 3
  | .vmem => 0
  | .smem => 0
  | _ => 0

abbrev bufTy : (tb : Table) → Fin (tcTables nBuf tb) → BufTy
  | .hbm, ⟨0, _⟩ => ⟨S8x2048x64, .f32⟩
  | .hbm, ⟨1, _⟩ => ⟨S8x2048x2048, .f32⟩
  | .hbm, ⟨2, _⟩ => ⟨S8x2048x64, .f32⟩
  | _, _ => ⟨S8x2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]

class Facts₀ : Prop where
  dot_S8x2048x2048_S8x2048x64_S8x2048x64_2_1_1_2_0_0_wf : DotDims.WF S8x2048x2048 S8x2048x64 S8x2048x64 [2] [1] [1] [2] [0] [0]

variable [Facts₀]

def dot_S8x2048x2048_S8x2048x64_S8x2048x64_2_1_1_2_0_0 : DotDims S8x2048x2048 S8x2048x64 S8x2048x64 where
  lhsContracting := [2]
  rhsContracting := [1]
  lhsNonContracting := [1]
  rhsNonContracting := [2]
  lhsBatch := [0]
  rhsBatch := [0]
  wf := dot_S8x2048x2048_S8x2048x64_S8x2048x64_2_1_1_2_0_0_wf

class Facts : Prop extends Facts₀ where

variable [Facts]
-- ==== Proof.StreamData.lean ====
/-
  The staging data of the batched product out[b] = A[b] · f[b] on the grid of 8 batches.
  At batch b the body is handed the whole [2048, 64] slab f[b] and eight row slabs of A[b], slab j holding rows
  256·j … 256·j + 255 of A[b]; it stores, for each j, the product (slab j) · f[b] into rows 256·j … 256·j + 255 of
  the output block. The eight row slabs are eight windows onto ONE array, so each window holds that array at one
  eighth of the full share: the full share halved three times.
-/
import proofs.«174029_g59390807769544_cont_9to1_m_1017_22_alg».proof.Proof.Gen.KernelIdeal.Launch
import proofs.«174029_g59390807769544_cont_9to1_m_1017_22_alg».proof.Proof.Gen.KernelIdeal.Skeleton
import proofs.«174029_g59390807769544_cont_9to1_m_1017_22_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Stream

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The buffers as the one region finds them: as launched (the program is the region alone). -/
abbrev V (c : Dev nD) (b : Ref sig .tc) : Buf (Elt F) ((c : Thread nD τ).loc b) := m ((c : Thread nD τ).loc b)

/-- Window `w`'s block at batch `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The body's rectangles: the whole f-slab, a whole A-slab, and the eight row bands of the output block -/

abbrev rF : Rect S1x2048x64 := Rect.unit (s := S1x2048x64) ![0, 0, 0] S1x2048x64.size Facts₀.inb_S1x2048x64_S1x2048x64_0_0_0
abbrev rA : Rect S1x256x2048 := Rect.unit (s := S1x256x2048) ![0, 0, 0] S1x256x2048.size Facts₀.inb_S1x256x2048_S1x256x2048_0_0_0
abbrev rO0 : Rect S1x2048x64 := Rect.unit (s := S1x2048x64) ![0, 0, 0] S1x256x64.size Facts₀.inb_S1x2048x64_S1x256x64_0_0_0
abbrev rO1 : Rect S1x2048x64 := Rect.unit (s := S1x2048x64) ![0, 256, 0] S1x256x64.size Facts₀.inb_S1x2048x64_S1x256x64_0_256_0
abbrev rO2 : Rect S1x2048x64 := Rect.unit (s := S1x2048x64) ![0, 512, 0] S1x256x64.size Facts₀.inb_S1x2048x64_S1x256x64_0_512_0
abbrev rO3 : Rect S1x2048x64 := Rect.unit (s := S1x2048x64) ![0, 768, 0] S1x256x64.size Facts₀.inb_S1x2048x64_S1x256x64_0_768_0
abbrev rO4 : Rect S1x2048x64 := Rect.unit (s := S1x2048x64) ![0, 1024, 0] S1x256x64.size Facts₀.inb_S1x2048x64_S1x256x64_0_1024_0
abbrev rO5 : Rect S1x2048x64 := Rect.unit (s := S1x2048x64) ![0, 1280, 0] S1x256x64.size Facts₀.inb_S1x2048x64_S1x256x64_0_1280_0
abbrev rO6 : Rect S1x2048x64 := Rect.unit (s := S1x2048x64) ![0, 1536, 0] S1x256x64.size Facts₀.inb_S1x2048x64_S1x256x64_0_1536_0
abbrev rO7 : Rect S1x2048x64 := Rect.unit (s := S1x2048x64) ![0, 1792, 0] S1x256x64.size Facts₀.inb_S1x2048x64_S1x256x64_0_1792_0

/-- The output block after the body, from the f-slab `x0` and the eight A-slabs `x1 … x8`: band j holds
    (slab j) · f. The eight stores as pieces, the last store first. -/
def outBlock (x0 : Vec F S1x2048x64 .f32) (x1 x2 x3 x4 x5 x6 x7 x8 : Vec F S1x256x2048 .f32) : Vec F S1x2048x64 .f32 :=
  View.canon [⟨rO7, k0_pay10 (k0_pay1 (View.ld x0 rF)) (View.ld x8 rA)⟩,
    ⟨rO6, k0_pay9 (k0_pay1 (View.ld x0 rF)) (View.ld x7 rA)⟩,
    ⟨rO5, k0_pay8 (k0_pay1 (View.ld x0 rF)) (View.ld x6 rA)⟩,
    ⟨rO4, k0_pay7 (k0_pay1 (View.ld x0 rF)) (View.ld x5 rA)⟩,
    ⟨rO3, k0_pay6 (k0_pay5 (View.ld x0 rF) (View.ld x4 rA))⟩,
    ⟨rO2, k0_pay4 (View.ld x0 rF) (View.ld x3 rA)⟩,
    ⟨rO1, k0_pay3 (View.ld x0 rF) (View.ld x2 rA)⟩,
    ⟨rO0, k0_pay2 (View.ld x0 rF) (View.ld x1 rA)⟩]

/-! ## The eight shares of the streamed array -/

/-- The full share halved three times: eight pairwise disjoint shares that compose to the full share. -/
abbrev sh000 : PosShare TreeShare := fullShare.left.left.left
abbrev sh001 : PosShare TreeShare := fullShare.left.left.right
abbrev sh010 : PosShare TreeShare := fullShare.left.right.left
abbrev sh011 : PosShare TreeShare := fullShare.left.right.right
abbrev sh100 : PosShare TreeShare := fullShare.right.left.left
abbrev sh101 : PosShare TreeShare := fullShare.right.left.right
abbrev sh110 : PosShare TreeShare := fullShare.right.right.left
abbrev sh111 : PosShare TreeShare := fullShare.right.right.right

/-! ## The proof data -/

/-- On core `c`: the arrays as the region finds them; after the body at batch `t` each input window's buffer at its
    block and the output's at `outBlock` of the nine input blocks; the region invariant the scoped rest and the
    generator register, untouched; nothing owed; the f-array at the full share and the eight windows onto the
    streamed array at one eighth each. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => outBlock (iblk m c 0 t) (iblk m c 1 t) (iblk m c 2 t) (iblk m c 3 t) (iblk m c 4 t) (iblk m c 5 t) (iblk m c 6 t) (iblk m c 7 t) (iblk m c 8 t)
  Φ _ := Pipeline.ΦA spec0 c
  q w := match w with
    | ⟨0, _⟩ => fullShare
    | ⟨1, _⟩ => sh000
    | ⟨2, _⟩ => sh001
    | ⟨3, _⟩ => sh010
    | ⟨4, _⟩ => sh011
    | ⟨5, _⟩ => sh100
    | ⟨6, _⟩ => sh101
    | ⟨7, _⟩ => sh110
    | ⟨8, _⟩ => sh111
    | ⟨9, _⟩ => fullShare
  owed _ := 0

/-- The data's arrays are the region-entry contents. -/
theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t
    = outBlock (iblk m c 0 t) (iblk m c 1 t) (iblk m c 2 t) (iblk m c 3 t) (iblk m c 4 t) (iblk m c 5 t) (iblk m c 6 t) (iblk m c 7 t) (iblk m c 8 t) := by
  dsimp only [dats]

theorem q_0 (c : Dev nD) : (dats m 0 c).q 0 = fullShare := by dsimp only [dats]
theorem q_1 (c : Dev nD) : (dats m 0 c).q 1 = sh000 := by dsimp only [dats]
theorem q_2 (c : Dev nD) : (dats m 0 c).q 2 = sh001 := by dsimp only [dats]
theorem q_3 (c : Dev nD) : (dats m 0 c).q 3 = sh010 := by dsimp only [dats]
theorem q_4 (c : Dev nD) : (dats m 0 c).q 4 = sh011 := by dsimp only [dats]
theorem q_5 (c : Dev nD) : (dats m 0 c).q 5 = sh100 := by dsimp only [dats]
theorem q_6 (c : Dev nD) : (dats m 0 c).q 6 = sh101 := by dsimp only [dats]
theorem q_7 (c : Dev nD) : (dats m 0 c).q 7 = sh110 := by dsimp only [dats]
theorem q_8 (c : Dev nD) : (dats m 0 c).q 8 = sh111 := by dsimp only [dats]

end Cert.KernelIdeal.Stream

end
-- ==== Proof.StreamBody.lean ====
/-
  The body of the batched product at one batch: from the f-slab and the eight A-slabs in their staging buffers,
  whatever the output's staging buffer holds, it leaves the inputs as they were and the output's buffer at
  `outBlock`: band j of it is (slab j) · f. The eight stores tile the output block, so nothing of what the
  buffer held before survives. With the inputs' buffers holding their blocks at every batch, this is the
  pipeline's obligation for the body at every batch.
-/
import proofs.«174029_g59390807769544_cont_9to1_m_1017_22_alg».proof.Proof.StreamData

set_option maxRecDepth 16384

noncomputable section

namespace Cert.KernelIdeal.Stream

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Each input window's buffer holds its block at every batch, fetched there or not -/

theorem before_0 (c : Dev nD) (t : Fin cfg0.N) (d) : (dats m 0 c).before 0 t d = iblk m c 0 t :=
  ((dats m 0 c).before_in_eq_fetched 0 rfl (fun _ => rfl) (fun _ _ _ => rfl)
    (fun t => by rw [after_0]; unfold Dat.blockOf iblk; rw [A_eq]; try rfl) t d).trans
    (by unfold Dat.fetched Dat.blockOf iblk; rw [A_eq]; try rfl)
theorem before_1 (c : Dev nD) (t : Fin cfg0.N) (d) : (dats m 0 c).before 1 t d = iblk m c 1 t :=
  ((dats m 0 c).before_in_eq_fetched 1 rfl (fun _ => rfl) (fun _ _ _ => rfl)
    (fun t => by rw [after_1]; unfold Dat.blockOf iblk; rw [A_eq]; try rfl) t d).trans
    (by unfold Dat.fetched Dat.blockOf iblk; rw [A_eq]; try rfl)
theorem before_2 (c : Dev nD) (t : Fin cfg0.N) (d) : (dats m 0 c).before 2 t d = iblk m c 2 t :=
  ((dats m 0 c).before_in_eq_fetched 2 rfl (fun _ => rfl) (fun _ _ _ => rfl)
    (fun t => by rw [after_2]; unfold Dat.blockOf iblk; rw [A_eq]; try rfl) t d).trans
    (by unfold Dat.fetched Dat.blockOf iblk; rw [A_eq]; try rfl)
theorem before_3 (c : Dev nD) (t : Fin cfg0.N) (d) : (dats m 0 c).before 3 t d = iblk m c 3 t :=
  ((dats m 0 c).before_in_eq_fetched 3 rfl (fun _ => rfl) (fun _ _ _ => rfl)
    (fun t => by rw [after_3]; unfold Dat.blockOf iblk; rw [A_eq]; try rfl) t d).trans
    (by unfold Dat.fetched Dat.blockOf iblk; rw [A_eq]; try rfl)
theorem before_4 (c : Dev nD) (t : Fin cfg0.N) (d) : (dats m 0 c).before 4 t d = iblk m c 4 t :=
  ((dats m 0 c).before_in_eq_fetched 4 rfl (fun _ => rfl) (fun _ _ _ => rfl)
    (fun t => by rw [after_4]; unfold Dat.blockOf iblk; rw [A_eq]; try rfl) t d).trans
    (by unfold Dat.fetched Dat.blockOf iblk; rw [A_eq]; try rfl)
theorem before_5 (c : Dev nD) (t : Fin cfg0.N) (d) : (dats m 0 c).before 5 t d = iblk m c 5 t :=
  ((dats m 0 c).before_in_eq_fetched 5 rfl (fun _ => rfl) (fun _ _ _ => rfl)
    (fun t => by rw [after_5]; unfold Dat.blockOf iblk; rw [A_eq]; try rfl) t d).trans
    (by unfold Dat.fetched Dat.blockOf iblk; rw [A_eq]; try rfl)
theorem before_6 (c : Dev nD) (t : Fin cfg0.N) (d) : (dats m 0 c).before 6 t d = iblk m c 6 t :=
  ((dats m 0 c).before_in_eq_fetched 6 rfl (fun _ => rfl) (fun _ _ _ => rfl)
    (fun t => by rw [after_6]; unfold Dat.blockOf iblk; rw [A_eq]; try rfl) t d).trans
    (by unfold Dat.fetched Dat.blockOf iblk; rw [A_eq]; try rfl)
theorem before_7 (c : Dev nD) (t : Fin cfg0.N) (d) : (dats m 0 c).before 7 t d = iblk m c 7 t :=
  ((dats m 0 c).before_in_eq_fetched 7 rfl (fun _ => rfl) (fun _ _ _ => rfl)
    (fun t => by rw [after_7]; unfold Dat.blockOf iblk; rw [A_eq]; try rfl) t d).trans
    (by unfold Dat.fetched Dat.blockOf iblk; rw [A_eq]; try rfl)
theorem before_8 (c : Dev nD) (t : Fin cfg0.N) (d) : (dats m 0 c).before 8 t d = iblk m c 8 t :=
  ((dats m 0 c).before_in_eq_fetched 8 rfl (fun _ => rfl) (fun _ _ _ => rfl)
    (fun t => by rw [after_8]; unfold Dat.blockOf iblk; rw [A_eq]; try rfl) t d).trans
    (by unfold Dat.fetched Dat.blockOf iblk; rw [A_eq]; try rfl)

/-! ## The eight row bands tile the output block -/

theorem cover_out (p0 p1 p2 p3 p4 p5 p6 p7 : Vec F S1x256x64 .f32) (y : S1x2048x64.Idx) :
    ∃ pc ∈ ([⟨rO7, p7⟩, ⟨rO6, p6⟩, ⟨rO5, p5⟩, ⟨rO4, p4⟩, ⟨rO3, p3⟩, ⟨rO2, p2⟩, ⟨rO1, p1⟩, ⟨rO0, p0⟩] : List (View.Piece (Elt F) S1x2048x64 .f32)), y ∈ pc.1.set :=
  View.cover_of_tiled [⟨rO7, p7⟩, ⟨rO6, p6⟩, ⟨rO5, p5⟩, ⟨rO4, p4⟩, ⟨rO3, p3⟩, ⟨rO2, p2⟩, ⟨rO1, p1⟩, ⟨rO0, p0⟩] S1x256x64.size (by rfl) y

/-! ## The body's triple -/

set_option maxHeartbeats 1000000 in
/-- On whole staging memrefs, the nine inputs' at contents `x0 … x8` and the output's at anything, the body runs to
    the continuation holding the inputs' as they were and the output's at `outBlock x0 … x8`. -/
theorem sound_kernel (c : Dev nD) (E : Set ℕ) (i : grid0.Coords) (arg2 : Memref sig .tc .vmem S1x2048x64 .f32) (harg2 : arg2.IsWhole) (arg3 : Memref sig .tc .vmem S1x256x2048 .f32) (harg3 : arg3.IsWhole) (arg4 : Memref sig .tc .vmem S1x256x2048 .f32) (harg4 : arg4.IsWhole) (arg5 : Memref sig .tc .vmem S1x256x2048 .f32) (harg5 : arg5.IsWhole) (arg6 : Memref sig .tc .vmem S1x256x2048 .f32) (harg6 : arg6.IsWhole) (arg7 : Memref sig .tc .vmem S1x256x2048 .f32) (harg7 : arg7.IsWhole) (arg8 : Memref sig .tc .vmem S1x256x2048 .f32) (harg8 : arg8.IsWhole) (arg9 : Memref sig .tc .vmem S1x256x2048 .f32) (harg9 : arg9.IsWhole) (arg10 : Memref sig .tc .vmem S1x256x2048 .f32) (harg10 : arg10.IsWhole) (arg11 : Memref sig .tc .vmem S1x2048x64 .f32) (harg11 : arg11.IsWhole)
    (x0 : Vec F S1x2048x64 .f32) (x1 x2 x3 x4 x5 x6 x7 x8 : Vec F S1x256x2048 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ d, owns (c : Thread nD τ) arg11 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare (outBlock x0 x1 x2 x3 x4 x5 x6 x7 x8)) -∗ K ⟨⟩))
      ⊢ wp frame (wpE (defs₀ (F := F)) Variants.none c none) E (cc0__bmm_kernel i arg2 harg2 arg3 harg3 arg4 harg4 arg5 harg5 arg6 harg6 arg7 harg7 arg8 harg8 arg9 harg9 arg10 harg10 arg11 harg11) K := by
  simp only [cc0__bmm_kernel_eq_skeleton]; unfold cc0__bmm_kernel_skel
  simp only [k0_part2_eq_skeleton, k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  exact View.read_writes_eq_canon _ _ _ (cover_out _ _ _ _ _ _ _ _)

/-! ## The pipeline's obligation for the body, at a generic batch -/

/-- What the body is called with at batch `t`, the ten windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t))

/-- The body at any batch: the inputs' memrefs hold their blocks, so `sound_kernel` applies; the region invariant and
    what the core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7, after_8, after_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel c Set.univ (grid0.coords t) _ _ _ _ _ _ _ _ _ _ _ _ _ _ _ _ _ _ _ _
    (iblk m c 0 t) (iblk m c 1 t) (iblk m c 2 t) (iblk m c 3 t) (iblk m c 4 t) (iblk m c 5 t) (iblk m c 6 t) (iblk m c 7 t) (iblk m c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The pipeline's obligation for the body, at every batch. -/
theorem body_obligation (c : Dev nD) : BodyObligation (dats (F := F) m 0 c) (defs₀ (F := F)) Variants.none () Set.univ := fun t => by
  rw [bigSep_W0, bigSep_W0]
  exact sound_body m c t

end Cert.KernelIdeal.Stream

end
-- ==== Proof.StreamSplit.lean ====
/-
  The streamed array split among its eight windows.

  At the region's entry the three buffers behind the ten windows' arrays — the f-array, the streamed array A and the
  output array — are each held whole at the full share. Window 0 takes the f-array and window 9 the output array,
  each at the full share. The streamed array is read through eight windows, and a read needs only a positive share:
  the full share is halved three times, full = (lll + llr) + (lrl + lrr) + ((rll + rlr) + (rrl + rrr)), and
  window j + 1 takes the j-th eighth, in that order, at the same contents. Nothing is lost: the eight shares compose
  to the full share again.
-/
import proofs.«174029_g59390807769544_cont_9to1_m_1017_22_alg».proof.Proof.StreamData

set_option maxRecDepth 16384

noncomputable section

namespace Cert.KernelIdeal.Stream

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-! ## Each window's share -/

theorem share_0 (c : Dev nD) : (dats m 0 c).share 0 = fullShare := by
  unfold Dat.share; rw [q_0]; rfl
theorem share_1 (c : Dev nD) : (dats m 0 c).share 1 = sh000 := by
  unfold Dat.share; rw [q_1]; rfl
theorem share_2 (c : Dev nD) : (dats m 0 c).share 2 = sh001 := by
  unfold Dat.share; rw [q_2]; rfl
theorem share_3 (c : Dev nD) : (dats m 0 c).share 3 = sh010 := by
  unfold Dat.share; rw [q_3]; rfl
theorem share_4 (c : Dev nD) : (dats m 0 c).share 4 = sh011 := by
  unfold Dat.share; rw [q_4]; rfl
theorem share_5 (c : Dev nD) : (dats m 0 c).share 5 = sh100 := by
  unfold Dat.share; rw [q_5]; rfl
theorem share_6 (c : Dev nD) : (dats m 0 c).share 6 = sh101 := by
  unfold Dat.share; rw [q_6]; rfl
theorem share_7 (c : Dev nD) : (dats m 0 c).share 7 = sh110 := by
  unfold Dat.share; rw [q_7]; rfl
theorem share_8 (c : Dev nD) : (dats m 0 c).share 8 = sh111 := by
  unfold Dat.share; rw [q_8]; rfl
theorem share_9 (c : Dev nD) : (dats m 0 c).share 9 = fullShare := by
  unfold Dat.share; rfl

/-! ## Each window's array, at its share, at the region's entry -/

theorem win_0 (c : Dev nD) :
    ((cfg0.win 0).arr.view.loc (c.tc : Thread nD τ) ↦[(cfg0.win 0).arr.view.set]{(dats m 0 c).share 0} (dats m 0 c).arrAt 0 0 : sProp 𝕄)
      = ((c.tc : Thread nD τ).loc main_arg0 ↦{fullShare} V m c main_arg0) := by
  rw [(arr_whole0 0).set_eq_univ, share_0]; rfl
theorem win_1 (c : Dev nD) :
    ((cfg0.win 1).arr.view.loc (c.tc : Thread nD τ) ↦[(cfg0.win 1).arr.view.set]{(dats m 0 c).share 1} (dats m 0 c).arrAt 1 0 : sProp 𝕄)
      = ((c.tc : Thread nD τ).loc main_arg1 ↦{sh000} V m c main_arg1) := by
  rw [(arr_whole0 1).set_eq_univ, share_1]; rfl
theorem win_2 (c : Dev nD) :
    ((cfg0.win 2).arr.view.loc (c.tc : Thread nD τ) ↦[(cfg0.win 2).arr.view.set]{(dats m 0 c).share 2} (dats m 0 c).arrAt 2 0 : sProp 𝕄)
      = ((c.tc : Thread nD τ).loc main_arg1 ↦{sh001} V m c main_arg1) := by
  rw [(arr_whole0 2).set_eq_univ, share_2]; rfl
theorem win_3 (c : Dev nD) :
    ((cfg0.win 3).arr.view.loc (c.tc : Thread nD τ) ↦[(cfg0.win 3).arr.view.set]{(dats m 0 c).share 3} (dats m 0 c).arrAt 3 0 : sProp 𝕄)
      = ((c.tc : Thread nD τ).loc main_arg1 ↦{sh010} V m c main_arg1) := by
  rw [(arr_whole0 3).set_eq_univ, share_3]; rfl
theorem win_4 (c : Dev nD) :
    ((cfg0.win 4).arr.view.loc (c.tc : Thread nD τ) ↦[(cfg0.win 4).arr.view.set]{(dats m 0 c).share 4} (dats m 0 c).arrAt 4 0 : sProp 𝕄)
      = ((c.tc : Thread nD τ).loc main_arg1 ↦{sh011} V m c main_arg1) := by
  rw [(arr_whole0 4).set_eq_univ, share_4]; rfl
theorem win_5 (c : Dev nD) :
    ((cfg0.win 5).arr.view.loc (c.tc : Thread nD τ) ↦[(cfg0.win 5).arr.view.set]{(dats m 0 c).share 5} (dats m 0 c).arrAt 5 0 : sProp 𝕄)
      = ((c.tc : Thread nD τ).loc main_arg1 ↦{sh100} V m c main_arg1) := by
  rw [(arr_whole0 5).set_eq_univ, share_5]; rfl
theorem win_6 (c : Dev nD) :
    ((cfg0.win 6).arr.view.loc (c.tc : Thread nD τ) ↦[(cfg0.win 6).arr.view.set]{(dats m 0 c).share 6} (dats m 0 c).arrAt 6 0 : sProp 𝕄)
      = ((c.tc : Thread nD τ).loc main_arg1 ↦{sh101} V m c main_arg1) := by
  rw [(arr_whole0 6).set_eq_univ, share_6]; rfl
theorem win_7 (c : Dev nD) :
    ((cfg0.win 7).arr.view.loc (c.tc : Thread nD τ) ↦[(cfg0.win 7).arr.view.set]{(dats m 0 c).share 7} (dats m 0 c).arrAt 7 0 : sProp 𝕄)
      = ((c.tc : Thread nD τ).loc main_arg1 ↦{sh110} V m c main_arg1) := by
  rw [(arr_whole0 7).set_eq_univ, share_7]; rfl
theorem win_8 (c : Dev nD) :
    ((cfg0.win 8).arr.view.loc (c.tc : Thread nD τ) ↦[(cfg0.win 8).arr.view.set]{(dats m 0 c).share 8} (dats m 0 c).arrAt 8 0 : sProp 𝕄)
      = ((c.tc : Thread nD τ).loc main_arg1 ↦{sh111} V m c main_arg1) := by
  rw [(arr_whole0 8).set_eq_univ, share_8]; rfl
theorem win_9 (c : Dev nD) :
    ((cfg0.win 9).arr.view.loc (c.tc : Thread nD τ) ↦[(cfg0.win 9).arr.view.set]{(dats m 0 c).share 9} (dats m 0 c).arrAt 9 0 : sProp 𝕄)
      = ((c.tc : Thread nD τ).loc main_v0 ↦{fullShare} V m c main_v0) := by
  rw [(arr_whole0 9).set_eq_univ, share_9]; rfl

/-! ## The split -/

/-- The buffers behind the windows' arrays, each whole at the full share at the entry contents, yield every window's
    array at that window's share at the proof data's entry contents: the streamed array's full share halved three
    times, one eighth to each of its eight windows. -/
theorem arrays_split (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  unfold Pipeline.arrBufs Dat.arrays
  rw [bigSep_eq_bigSepL_of_eq [main_arg0, main_arg1, main_v0] (by decide) (by decide), bigSep_W0]
  beta_reduce
  rw [win_0 m c, win_1 m c, win_2 m c, win_3 m c, win_4 m c, win_5 m c, win_6 m c, win_7 m c, win_8 m c, win_9 m c]
  show (iprop(((c.tc : Thread nD τ).loc main_arg0 ↦{fullShare} V m c main_arg0)
      ∗ ((c.tc : Thread nD τ).loc main_arg1 ↦{fullShare} V m c main_arg1)
      ∗ ((c.tc : Thread nD τ).loc main_v0 ↦{fullShare} V m c main_v0)) : sProp 𝕄) ⊢ _
  iintro ⟨H0, H1, H9⟩
  ihave H1 := (pointsTo_share (PosShare.mem_left_op_right fullShare)).1 $$ H1
  icases H1 with ⟨HL, HR⟩
  ihave HL := (pointsTo_share (PosShare.mem_left_op_right fullShare.left)).1 $$ HL
  icases HL with ⟨HLL, HLR⟩
  ihave HR := (pointsTo_share (PosShare.mem_left_op_right fullShare.right)).1 $$ HR
  icases HR with ⟨HRL, HRR⟩
  ihave HLL := (pointsTo_share (PosShare.mem_left_op_right fullShare.left.left)).1 $$ HLL
  icases HLL with ⟨H000, H001⟩
  ihave HLR := (pointsTo_share (PosShare.mem_left_op_right fullShare.left.right)).1 $$ HLR
  icases HLR with ⟨H010, H011⟩
  ihave HRL := (pointsTo_share (PosShare.mem_left_op_right fullShare.right.left)).1 $$ HRL
  icases HRL with ⟨H100, H101⟩
  ihave HRR := (pointsTo_share (PosShare.mem_left_op_right fullShare.right.right)).1 $$ HRR
  icases HRR with ⟨H110, H111⟩
  isplitl [H0]; · iexact H0
  isplitl [H000]; · iexact H000
  isplitl [H001]; · iexact H001
  isplitl [H010]; · iexact H010
  isplitl [H011]; · iexact H011
  isplitl [H100]; · iexact H100
  isplitl [H101]; · iexact H101
  isplitl [H110]; · iexact H110
  isplitl [H111]; · iexact H111
  iexact H9

end Cert.KernelIdeal.Stream

end
-- ==== Proof.LibSharedFrame.lean ====
/-
  The frame run of a one-region kernel on a static grid whose INPUT windows may share arrays.

  A region's windows are staged block by block: before the body runs at a grid point each fetched input block is
  copied from its array into a staging buffer, and after it each flushed output block is copied back. The region
  rule therefore asks, at entry, for every window's array as a points-to at the share the proof data give that
  window (`Dat.arrays`). When every window has an array of its own, these are the arrays' buffers at the full share.
  When several INPUT windows look at one array, no window can hold that array at the full share; but an input window
  only ever READS its array, and a read needs only a positive share. So the one buffer, held at the full share, is
  split into as many positive shares as there are windows onto it, one share per window (`hsplit`): the region runs
  with each window at its share, and at exit the shares are still there at the same contents.

  The theorem below is that run for the class of kernels whose region invariant is the class invariant `ΦA` (the
  scoped buffers that are no staging buffer at some contents, and the generator register at some state) before the
  first point and after the last: under the body obligation, from any memory with zero counters every weakly fair
  execution of @main terminates without fault, every window's array ends at what the proof data compute for it
  (an input: its contents at entry), and every unscoped buffer that is no window's array ends as it was at entry.
  It is the library's frame run with the hypothesis "distinct arrays, full shares" replaced by the split `hsplit`.
-/
import Idealize.ShloMosaic.Lib.Pipeline.Frame

set_option maxRecDepth 16384

noncomputable section

namespace SharedFrame

open Idealize.ShloMosaic Idealize.ShloMosaic.TcCoe
open Idealize.SL Idealize.SL.RA
open Idealize.SL.BI (sProp bigSep)
open scoped Idealize.SL.BI
open Idealize.SL.BI.BIBase Idealize.SL.BI.Laws Idealize.SL.Sem Idealize.SL.ProofMode
open Idealize.ShloMosaic.Rounds
open Idealize.ShloMosaic.Pipeline

variable {nD : Nat} {τ : Topo} {sig : RefSig} {Val : EltTy → Type}
variable {Λ₀ : Idealize.SL.Sem.Labels} {P : Type} [Fintype P] [DecidableEq P] [∀ e, Nonempty (Val e)]

local notation "𝕄" => MT nD τ sig Unit Val ℕ (UR sig nD τ) ℕ

variable (cfgs : P → Cfg sig Λ₀)
  (dats : (p : P) → (c : Dev nD) → Dat τ Val Unit ℕ (UR sig nD τ) ℕ (cfgs p) c) (p : P)
  (defs₀ : Defs nD τ sig Val Λ₀) (𝒱₀ : Variants)

/-- The frame run when input windows share arrays. `hinj`: the staging cells are pairwise distinct; `hw`: the
    windows' layout, the arrays' distinctness apart; `hne`, `harr`, `hstage`: no block is empty, arrays and
    staging buffers are whole buffers; `hbody`: the body obligation at every point; `howed`: nothing owed;
    `hmain`: @main up to the region, the unscoped buffers at `V` there; `hsplit`: the distinct buffers behind the
    windows' arrays, each whole at the full share at `V`, yield every window's array at that window's share at
    the proof data's entry contents; `hin`, `hout`: the class invariant yields the data's invariant before the
    first point and is yielded back after the last. Concludes the frame post: every window's array at the proof
    data's final contents, every other unscoped buffer at `V`. -/
theorem θ_run_frame_shared
    (hinj : Function.Injective (cellOf (nD := nD) (τ := τ) cfgs))
    (hw : WinFacts₀ (cfgs p).spec)
    (hne : ∀ w : Fin (cfgs p).W, 0 < ((cfgs p).spec w).block.numel)
    (harr : ∀ w, ((cfgs p).spec w).arr.IsWhole) (hstage : ∀ w s, (((cfgs p).spec w).stage s).IsWhole)
    (m : (ℓ : Loc nD τ sig) → Buf Val ℓ) (g : Dev nD → PrngReg)
    (main : Dev nD → Prog (TpuEff nD τ sig Val (Sig Λ₀ P fun p => ((cfgs p).toPCfg (Val := Val)).Adm) .tc) PUnit)
    (hbody : ∀ c, BodyObligationLoose (dats p c) defs₀ 𝒱₀ () Set.univ)
    (howed : ∀ c t, (dats p c).owed t = 0)
    (V : (c : Dev nD) → (b : Ref sig .tc) → Buf Val ((c.tc : Thread nD τ).loc b))
    (hmain : HMain (Ix := Unit) (Name := ℕ) (U := UR sig nD τ) (Lvl := ℕ) cfgs p defs₀ 𝒱₀ m main V)
    (hsplit : ∀ c, (arrBufs (cfgs p).spec c (V c) : sProp 𝕄) ⊢ (dats p c).arrays ((dats p c).arrAt · 0))
    (hin : ∀ c, ΦA (cfgs p).spec c ⊢ (dats p c).Φ 0)
    (hout : ∀ c, (dats p c).Φ (Fin.last (cfgs p).N) ⊢ ΦA (cfgs p).spec c) :
    θ_run (Pipeline.defs (fun q => Cfg.toPCfg (Val := Val) (cfgs q)) defs₀) (onTc main) (s₀ m g)
      (FramePost cfgs dats p V) := by
  classical
  exact Pipeline.θ_run_region_pf (fun q => (cfgs q).toPCfg (Val := Val)) (fun q => (cfgs q).toPCfg_adm) dats () hinj p hw
    (OwnSemFacts.none (cfgs p).spec) (PreFacts.none _) emb₁ defs₀ 𝒱₀ m g main
    hbody hne harr hstage howed
    (G := fun _ => iprop(emp)) (u₀ := initOf (cells cfgs hinj) (launchToks cfgs hinj))
    (hu₀ := by
      iintro Hu; imodintro
      isplitl [Hu]; · iapply (show (ownU _ : sProp 𝕄) ⊢ BI.own (emb₁ (initOf (cells cfgs hinj) (launchToks cfgs hinj))) from .rfl); iexact Hu
      iapply (show (BI.emp : sProp 𝕄) ⊢ bigSep Finset.univ (fun _ : Dev nD => (BI.emp : sProp 𝕄)) from by rw [BI.bigSep_emp_const])
      iempintro)
    (V := V) (hmain := hmain) (hsplit := hsplit) (hpf := fun _ k => k.elim0)
    (X := fun c => iprop(∃ r, prngReg c r)) (Y := fun c => iprop(∃ r, prngReg c r))
    (Z := fun c => unscopedRest (Ix := Unit) (Name := ℕ) (U := UR sig nD τ) (Lvl := ℕ) (cfgs p).spec c (V c))
    (hX := fun c => by
      rw [unscopedRestP_none]
      iintro ⟨HU, -, -, -, Hp, -⟩; imodintro
      isplitl [Hp]; · iexists _; iexact Hp
      iexact HU)
    (hin := fun c => (show _ ⊢ ΦA (cfgs p).spec c by
        unfold ΦA; iintro ⟨Hp, -, Hr⟩
        isplitl [Hr] <;> iassumption).trans (hin c))
    (hout := fun c => (hout c).trans (by
        rw [ownSems0_none]; unfold ΦA
        iintro ⟨Hr, Hp⟩
        isplitl [Hp]; · iexact Hp
        isplitr; · iempintro
        iexact Hr))
    (QY := fun c s => ∀ b ∈ restRefs sig (cfgs p).spec, s.mem ((c.tc : Thread nD τ).loc b) = V c b)
    (hY := fun c s' => by
      iintro ⟨-, HU, HSI⟩
      unfold unscopedRest
      imodintro
      iapply (pointsTo_read_all (restRefs sig (cfgs p).spec) (fun b => (c.tc : Thread nD τ).loc b) (V c) s')
      isplitl [HU] <;> iassumption)
    (hQ := fun s h c => ⟨(h c).1, (h c).2.2⟩)

end SharedFrame

end
-- ==== Proof.StreamFrame.lean ====
/-
  The run of the batched product as one region: every execution terminates without a fault, each window's array
  ends at what the eight write-backs leave in it — an input array, never written, at its contents at launch —
  and hence the two argument arrays end unchanged.
-/
import proofs.«174029_g59390807769544_cont_9to1_m_1017_22_alg».proof.Proof.StreamBody
import proofs.«174029_g59390807769544_cont_9to1_m_1017_22_alg».proof.Proof.StreamSplit
import proofs.«174029_g59390807769544_cont_9to1_m_1017_22_alg».proof.Proof.LibSharedFrame

set_option maxRecDepth 16384

noncomputable section

namespace Cert.KernelIdeal.Stream

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

variable (m : (ℓ : Loc nD τ sig) → Buf (Elt F) ℓ) (ρ : Dev nD → PrngReg)

set_option backward.isDefEq.respectTransparency.types false in
/-- From any memory with zero counters every weakly fair execution of the program terminates, and every final
    state has every window's array at what the proof data compute after the last batch and every other unscoped
    buffer as launched: the body's obligation at every batch, the one streamed array dealt among its eight windows
    at an eighth of the full share each. -/
theorem run_main : θ_run (defs (F := F)) (onTc (τ := τ) (main (F := F))) (s₀ m ρ) (Pipeline.FramePost cfgs (dats m) 0 (V m)) :=
  SharedFrame.θ_run_frame_shared cfgs (dats m) (0 : Fin 1) defs₀ Variants.none cellOf_inj winFacts₀0 block_pos0 arr_whole0 stage_whole0
    m ρ main (fun c => (body_obligation m c).loose) (fun _ _ => rfl) (V m)
    (Pipeline.hmain_region cfgs 0 defs₀ Variants.none m main fun c => (main_chain c).trans rfl)
    (fun c => arrays_split m c) (fun _ => .rfl) (fun _ => .rfl)

/-- The two argument arrays end unchanged: each is an input window's array, which no write-back touches. -/
theorem frame : θ_run (defs (F := F)) (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨((h c).1 0).trans (((dats m 0 c).arrAt_in 0 rfl _).trans (A_eq m c 0)),
      ((h c).1 1).trans (((dats m 0 c).arrAt_in 1 rfl _).trans (A_eq m c 1))⟩) (run_main m ρ)

end Cert.KernelIdeal.Stream

end
-- ==== Proof.WordStreamData.lean ====
/-
  The staging data of the batched product out[b] = A[b] · f[b] on the grid of 8 batches.
  At batch b the body is handed the whole [2048, 64] slab f[b] and eight row slabs of A[b], slab j holding rows
  256·j … 256·j + 255 of A[b]; it stores, for each j, the product (slab j) · f[b] into rows 256·j … 256·j + 255 of
  the output block. The eight row slabs are eight windows onto ONE array, so each window holds that array at one
  eighth of the full share: the full share halved three times.
-/
import proofs.«174029_g59390807769544_cont_9to1_m_1017_22_alg».proof.Proof.Gen.Kernel.Launch
import proofs.«174029_g59390807769544_cont_9to1_m_1017_22_alg».proof.Proof.Gen.Kernel.Skeleton
import proofs.«174029_g59390807769544_cont_9to1_m_1017_22_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Stream

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The buffers as the one region finds them: as launched (the program is the region alone). -/
abbrev V (c : Dev nD) (b : Ref sig .tc) : Buf (Elt F) ((c : Thread nD τ).loc b) := m ((c : Thread nD τ).loc b)

/-- Window `w`'s block at batch `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The body's rectangles: the whole f-slab, a whole A-slab, and the eight row bands of the output block -/

abbrev rF : Rect S1x2048x64 := Rect.unit (s := S1x2048x64) ![0, 0, 0] S1x2048x64.size Facts₀.inb_S1x2048x64_S1x2048x64_0_0_0
abbrev rA : Rect S1x256x2048 := Rect.unit (s := S1x256x2048) ![0, 0, 0] S1x256x2048.size Facts₀.inb_S1x256x2048_S1x256x2048_0_0_0
abbrev rO0 : Rect S1x2048x64 := Rect.unit (s := S1x2048x64) ![0, 0, 0] S1x256x64.size Facts₀.inb_S1x2048x64_S1x256x64_0_0_0
abbrev rO1 : Rect S1x2048x64 := Rect.unit (s := S1x2048x64) ![0, 256, 0] S1x256x64.size Facts₀.inb_S1x2048x64_S1x256x64_0_256_0
abbrev rO2 : Rect S1x2048x64 := Rect.unit (s := S1x2048x64) ![0, 512, 0] S1x256x64.size Facts₀.inb_S1x2048x64_S1x256x64_0_512_0
abbrev rO3 : Rect S1x2048x64 := Rect.unit (s := S1x2048x64) ![0, 768, 0] S1x256x64.size Facts₀.inb_S1x2048x64_S1x256x64_0_768_0
abbrev rO4 : Rect S1x2048x64 := Rect.unit (s := S1x2048x64) ![0, 1024, 0] S1x256x64.size Facts₀.inb_S1x2048x64_S1x256x64_0_1024_0
abbrev rO5 : Rect S1x2048x64 := Rect.unit (s := S1x2048x64) ![0, 1280, 0] S1x256x64.size Facts₀.inb_S1x2048x64_S1x256x64_0_1280_0
abbrev rO6 : Rect S1x2048x64 := Rect.unit (s := S1x2048x64) ![0, 1536, 0] S1x256x64.size Facts₀.inb_S1x2048x64_S1x256x64_0_1536_0
abbrev rO7 : Rect S1x2048x64 := Rect.unit (s := S1x2048x64) ![0, 1792, 0] S1x256x64.size Facts₀.inb_S1x2048x64_S1x256x64_0_1792_0

/-- The output block after the body, from the f-slab `x0` and the eight A-slabs `x1 … x8`: band j holds
    (slab j) · f. The eight stores as pieces, the last store first. -/
def outBlock (x0 : Vec F S1x2048x64 .f32) (x1 x2 x3 x4 x5 x6 x7 x8 : Vec F S1x256x2048 .f32) : Vec F S1x2048x64 .f32 :=
  View.canon [⟨rO7, k0_pay10 (k0_pay1 (View.ld x0 rF)) (View.ld x8 rA)⟩,
    ⟨rO6, k0_pay9 (k0_pay1 (View.ld x0 rF)) (View.ld x7 rA)⟩,
    ⟨rO5, k0_pay8 (k0_pay1 (View.ld x0 rF)) (View.ld x6 rA)⟩,
    ⟨rO4, k0_pay7 (k0_pay1 (View.ld x0 rF)) (View.ld x5 rA)⟩,
    ⟨rO3, k0_pay6 (k0_pay5 (View.ld x0 rF) (View.ld x4 rA))⟩,
    ⟨rO2, k0_pay4 (View.ld x0 rF) (View.ld x3 rA)⟩,
    ⟨rO1, k0_pay3 (View.ld x0 rF) (View.ld x2 rA)⟩,
    ⟨rO0, k0_pay2 (View.ld x0 rF) (View.ld x1 rA)⟩]

/-! ## The eight shares of the streamed array -/

/-- The full share halved three times: eight pairwise disjoint shares that compose to the full share. -/
abbrev sh000 : PosShare TreeShare := fullShare.left.left.left
abbrev sh001 : PosShare TreeShare := fullShare.left.left.right
abbrev sh010 : PosShare TreeShare := fullShare.left.right.left
abbrev sh011 : PosShare TreeShare := fullShare.left.right.right
abbrev sh100 : PosShare TreeShare := fullShare.right.left.left
abbrev sh101 : PosShare TreeShare := fullShare.right.left.right
abbrev sh110 : PosShare TreeShare := fullShare.right.right.left
abbrev sh111 : PosShare TreeShare := fullShare.right.right.right

/-! ## The proof data -/

/-- On core `c`: the arrays as the region finds them; after the body at batch `t` each input window's buffer at its
    block and the output's at `outBlock` of the nine input blocks; the region invariant the scoped rest and the
    generator register, untouched; nothing owed; the f-array at the full share and the eight windows onto the
    streamed array at one eighth each. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => outBlock (iblk m c 0 t) (iblk m c 1 t) (iblk m c 2 t) (iblk m c 3 t) (iblk m c 4 t) (iblk m c 5 t) (iblk m c 6 t) (iblk m c 7 t) (iblk m c 8 t)
  Φ _ := Pipeline.ΦA spec0 c
  q w := match w with
    | ⟨0, _⟩ => fullShare
    | ⟨1, _⟩ => sh000
    | ⟨2, _⟩ => sh001
    | ⟨3, _⟩ => sh010
    | ⟨4, _⟩ => sh011
    | ⟨5, _⟩ => sh100
    | ⟨6, _⟩ => sh101
    | ⟨7, _⟩ => sh110
    | ⟨8, _⟩ => sh111
    | ⟨9, _⟩ => fullShare
  owed _ := 0

/-- The data's arrays are the region-entry contents. -/
theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t
    = outBlock (iblk m c 0 t) (iblk m c 1 t) (iblk m c 2 t) (iblk m c 3 t) (iblk m c 4 t) (iblk m c 5 t) (iblk m c 6 t) (iblk m c 7 t) (iblk m c 8 t) := by
  dsimp only [dats]

theorem q_0 (c : Dev nD) : (dats m 0 c).q 0 = fullShare := by dsimp only [dats]
theorem q_1 (c : Dev nD) : (dats m 0 c).q 1 = sh000 := by dsimp only [dats]
theorem q_2 (c : Dev nD) : (dats m 0 c).q 2 = sh001 := by dsimp only [dats]
theorem q_3 (c : Dev nD) : (dats m 0 c).q 3 = sh010 := by dsimp only [dats]
theorem q_4 (c : Dev nD) : (dats m 0 c).q 4 = sh011 := by dsimp only [dats]
theorem q_5 (c : Dev nD) : (dats m 0 c).q 5 = sh100 := by dsimp only [dats]
theorem q_6 (c : Dev nD) : (dats m 0 c).q 6 = sh101 := by dsimp only [dats]
theorem q_7 (c : Dev nD) : (dats m 0 c).q 7 = sh110 := by dsimp only [dats]
theorem q_8 (c : Dev nD) : (dats m 0 c).q 8 = sh111 := by dsimp only [dats]

end Cert.Kernel.Stream

end
-- ==== Proof.WordStreamBody.lean ====
/-
  The body of the batched product at one batch: from the f-slab and the eight A-slabs in their staging buffers,
  whatever the output's staging buffer holds, it leaves the inputs as they were and the output's buffer at
  `outBlock`: band j of it is (slab j) · f. The eight stores tile the output block, so nothing of what the
  buffer held before survives. With the inputs' buffers holding their blocks at every batch, this is the
  pipeline's obligation for the body at every batch.
-/
import proofs.«174029_g59390807769544_cont_9to1_m_1017_22_alg».proof.Proof.WordStreamData

set_option maxRecDepth 16384

noncomputable section

namespace Cert.Kernel.Stream

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Each input window's buffer holds its block at every batch, fetched there or not -/

theorem before_0 (c : Dev nD) (t : Fin cfg0.N) (d) : (dats m 0 c).before 0 t d = iblk m c 0 t :=
  ((dats m 0 c).before_in_eq_fetched 0 rfl (fun _ => rfl) (fun _ _ _ => rfl)
    (fun t => by rw [after_0]; unfold Dat.blockOf iblk; rw [A_eq]; try rfl) t d).trans
    (by unfold Dat.fetched Dat.blockOf iblk; rw [A_eq]; try rfl)
theorem before_1 (c : Dev nD) (t : Fin cfg0.N) (d) : (dats m 0 c).before 1 t d = iblk m c 1 t :=
  ((dats m 0 c).before_in_eq_fetched 1 rfl (fun _ => rfl) (fun _ _ _ => rfl)
    (fun t => by rw [after_1]; unfold Dat.blockOf iblk; rw [A_eq]; try rfl) t d).trans
    (by unfold Dat.fetched Dat.blockOf iblk; rw [A_eq]; try rfl)
theorem before_2 (c : Dev nD) (t : Fin cfg0.N) (d) : (dats m 0 c).before 2 t d = iblk m c 2 t :=
  ((dats m 0 c).before_in_eq_fetched 2 rfl (fun _ => rfl) (fun _ _ _ => rfl)
    (fun t => by rw [after_2]; unfold Dat.blockOf iblk; rw [A_eq]; try rfl) t d).trans
    (by unfold Dat.fetched Dat.blockOf iblk; rw [A_eq]; try rfl)
theorem before_3 (c : Dev nD) (t : Fin cfg0.N) (d) : (dats m 0 c).before 3 t d = iblk m c 3 t :=
  ((dats m 0 c).before_in_eq_fetched 3 rfl (fun _ => rfl) (fun _ _ _ => rfl)
    (fun t => by rw [after_3]; unfold Dat.blockOf iblk; rw [A_eq]; try rfl) t d).trans
    (by unfold Dat.fetched Dat.blockOf iblk; rw [A_eq]; try rfl)
theorem before_4 (c : Dev nD) (t : Fin cfg0.N) (d) : (dats m 0 c).before 4 t d = iblk m c 4 t :=
  ((dats m 0 c).before_in_eq_fetched 4 rfl (fun _ => rfl) (fun _ _ _ => rfl)
    (fun t => by rw [after_4]; unfold Dat.blockOf iblk; rw [A_eq]; try rfl) t d).trans
    (by unfold Dat.fetched Dat.blockOf iblk; rw [A_eq]; try rfl)
theorem before_5 (c : Dev nD) (t : Fin cfg0.N) (d) : (dats m 0 c).before 5 t d = iblk m c 5 t :=
  ((dats m 0 c).before_in_eq_fetched 5 rfl (fun _ => rfl) (fun _ _ _ => rfl)
    (fun t => by rw [after_5]; unfold Dat.blockOf iblk; rw [A_eq]; try rfl) t d).trans
    (by unfold Dat.fetched Dat.blockOf iblk; rw [A_eq]; try rfl)
theorem before_6 (c : Dev nD) (t : Fin cfg0.N) (d) : (dats m 0 c).before 6 t d = iblk m c 6 t :=
  ((dats m 0 c).before_in_eq_fetched 6 rfl (fun _ => rfl) (fun _ _ _ => rfl)
    (fun t => by rw [after_6]; unfold Dat.blockOf iblk; rw [A_eq]; try rfl) t d).trans
    (by unfold Dat.fetched Dat.blockOf iblk; rw [A_eq]; try rfl)
theorem before_7 (c : Dev nD) (t : Fin cfg0.N) (d) : (dats m 0 c).before 7 t d = iblk m c 7 t :=
  ((dats m 0 c).before_in_eq_fetched 7 rfl (fun _ => rfl) (fun _ _ _ => rfl)
    (fun t => by rw [after_7]; unfold Dat.blockOf iblk; rw [A_eq]; try rfl) t d).trans
    (by unfold Dat.fetched Dat.blockOf iblk; rw [A_eq]; try rfl)
theorem before_8 (c : Dev nD) (t : Fin cfg0.N) (d) : (dats m 0 c).before 8 t d = iblk m c 8 t :=
  ((dats m 0 c).before_in_eq_fetched 8 rfl (fun _ => rfl) (fun _ _ _ => rfl)
    (fun t => by rw [after_8]; unfold Dat.blockOf iblk; rw [A_eq]; try rfl) t d).trans
    (by unfold Dat.fetched Dat.blockOf iblk; rw [A_eq]; try rfl)

/-! ## The eight row bands tile the output block -/

theorem cover_out (p0 p1 p2 p3 p4 p5 p6 p7 : Vec F S1x256x64 .f32) (y : S1x2048x64.Idx) :
    ∃ pc ∈ ([⟨rO7, p7⟩, ⟨rO6, p6⟩, ⟨rO5, p5⟩, ⟨rO4, p4⟩, ⟨rO3, p3⟩, ⟨rO2, p2⟩, ⟨rO1, p1⟩, ⟨rO0, p0⟩] : List (View.Piece (Elt F) S1x2048x64 .f32)), y ∈ pc.1.set :=
  View.cover_of_tiled [⟨rO7, p7⟩, ⟨rO6, p6⟩, ⟨rO5, p5⟩, ⟨rO4, p4⟩, ⟨rO3, p3⟩, ⟨rO2, p2⟩, ⟨rO1, p1⟩, ⟨rO0, p0⟩] S1x256x64.size (by rfl) y

/-! ## The body's triple -/

set_option maxHeartbeats 1000000 in
/-- On whole staging memrefs, the nine inputs' at contents `x0 … x8` and the output's at anything, the body runs to
    the continuation holding the inputs' as they were and the output's at `outBlock x0 … x8`. -/
theorem sound_kernel (c : Dev nD) (E : Set ℕ) (i : grid0.Coords) (arg2 : Memref sig .tc .vmem S1x2048x64 .f32) (harg2 : arg2.IsWhole) (arg3 : Memref sig .tc .vmem S1x256x2048 .f32) (harg3 : arg3.IsWhole) (arg4 : Memref sig .tc .vmem S1x256x2048 .f32) (harg4 : arg4.IsWhole) (arg5 : Memref sig .tc .vmem S1x256x2048 .f32) (harg5 : arg5.IsWhole) (arg6 : Memref sig .tc .vmem S1x256x2048 .f32) (harg6 : arg6.IsWhole) (arg7 : Memref sig .tc .vmem S1x256x2048 .f32) (harg7 : arg7.IsWhole) (arg8 : Memref sig .tc .vmem S1x256x2048 .f32) (harg8 : arg8.IsWhole) (arg9 : Memref sig .tc .vmem S1x256x2048 .f32) (harg9 : arg9.IsWhole) (arg10 : Memref sig .tc .vmem S1x256x2048 .f32) (harg10 : arg10.IsWhole) (arg11 : Memref sig .tc .vmem S1x2048x64 .f32) (harg11 : arg11.IsWhole)
    (x0 : Vec F S1x2048x64 .f32) (x1 x2 x3 x4 x5 x6 x7 x8 : Vec F S1x256x2048 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ d, owns (c : Thread nD τ) arg11 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare (outBlock x0 x1 x2 x3 x4 x5 x6 x7 x8)) -∗ K ⟨⟩))
      ⊢ wp frame (wpE (defs₀ (F := F)) Variants.none c none) E (cc0__bmm_kernel i arg2 harg2 arg3 harg3 arg4 harg4 arg5 harg5 arg6 harg6 arg7 harg7 arg8 harg8 arg9 harg9 arg10 harg10 arg11 harg11) K := by
  simp only [cc0__bmm_kernel_eq_skeleton]; unfold cc0__bmm_kernel_skel
  simp only [k0_part2_eq_skeleton, k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  exact View.read_writes_eq_canon _ _ _ (cover_out _ _ _ _ _ _ _ _)

/-! ## The pipeline's obligation for the body, at a generic batch -/

/-- What the body is called with at batch `t`, the ten windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t))

/-- The body at any batch: the inputs' memrefs hold their blocks, so `sound_kernel` applies; the region invariant and
    what the core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7, after_8, after_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel c Set.univ (grid0.coords t) _ _ _ _ _ _ _ _ _ _ _ _ _ _ _ _ _ _ _ _
    (iblk m c 0 t) (iblk m c 1 t) (iblk m c 2 t) (iblk m c 3 t) (iblk m c 4 t) (iblk m c 5 t) (iblk m c 6 t) (iblk m c 7 t) (iblk m c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The pipeline's obligation for the body, at every batch. -/
theorem body_obligation (c : Dev nD) : BodyObligation (dats (F := F) m 0 c) (defs₀ (F := F)) Variants.none () Set.univ := fun t => by
  rw [bigSep_W0, bigSep_W0]
  exact sound_body m c t

end Cert.Kernel.Stream

end
-- ==== Proof.WordStreamSplit.lean ====
/-
  The streamed array split among its eight windows.

  At the region's entry the three buffers behind the ten windows' arrays — the f-array, the streamed array A and the
  output array — are each held whole at the full share. Window 0 takes the f-array and window 9 the output array,
  each at the full share. The streamed array is read through eight windows, and a read needs only a positive share:
  the full share is halved three times, full = (lll + llr) + (lrl + lrr) + ((rll + rlr) + (rrl + rrr)), and
  window j + 1 takes the j-th eighth, in that order, at the same contents. Nothing is lost: the eight shares compose
  to the full share again.
-/
import proofs.«174029_g59390807769544_cont_9to1_m_1017_22_alg».proof.Proof.WordStreamData

set_option maxRecDepth 16384

noncomputable section

namespace Cert.Kernel.Stream

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

/-! ## Each window's share -/

theorem share_0 (c : Dev nD) : (dats m 0 c).share 0 = fullShare := by
  unfold Dat.share; rw [q_0]; rfl
theorem share_1 (c : Dev nD) : (dats m 0 c).share 1 = sh000 := by
  unfold Dat.share; rw [q_1]; rfl
theorem share_2 (c : Dev nD) : (dats m 0 c).share 2 = sh001 := by
  unfold Dat.share; rw [q_2]; rfl
theorem share_3 (c : Dev nD) : (dats m 0 c).share 3 = sh010 := by
  unfold Dat.share; rw [q_3]; rfl
theorem share_4 (c : Dev nD) : (dats m 0 c).share 4 = sh011 := by
  unfold Dat.share; rw [q_4]; rfl
theorem share_5 (c : Dev nD) : (dats m 0 c).share 5 = sh100 := by
  unfold Dat.share; rw [q_5]; rfl
theorem share_6 (c : Dev nD) : (dats m 0 c).share 6 = sh101 := by
  unfold Dat.share; rw [q_6]; rfl
theorem share_7 (c : Dev nD) : (dats m 0 c).share 7 = sh110 := by
  unfold Dat.share; rw [q_7]; rfl
theorem share_8 (c : Dev nD) : (dats m 0 c).share 8 = sh111 := by
  unfold Dat.share; rw [q_8]; rfl
theorem share_9 (c : Dev nD) : (dats m 0 c).share 9 = fullShare := by
  unfold Dat.share; rfl

/-! ## Each window's array, at its share, at the region's entry -/

theorem win_0 (c : Dev nD) :
    ((cfg0.win 0).arr.view.loc (c.tc : Thread nD τ) ↦[(cfg0.win 0).arr.view.set]{(dats m 0 c).share 0} (dats m 0 c).arrAt 0 0 : sProp 𝕄)
      = ((c.tc : Thread nD τ).loc main_arg0 ↦{fullShare} V m c main_arg0) := by
  rw [(arr_whole0 0).set_eq_univ, share_0]; rfl
theorem win_1 (c : Dev nD) :
    ((cfg0.win 1).arr.view.loc (c.tc : Thread nD τ) ↦[(cfg0.win 1).arr.view.set]{(dats m 0 c).share 1} (dats m 0 c).arrAt 1 0 : sProp 𝕄)
      = ((c.tc : Thread nD τ).loc main_arg1 ↦{sh000} V m c main_arg1) := by
  rw [(arr_whole0 1).set_eq_univ, share_1]; rfl
theorem win_2 (c : Dev nD) :
    ((cfg0.win 2).arr.view.loc (c.tc : Thread nD τ) ↦[(cfg0.win 2).arr.view.set]{(dats m 0 c).share 2} (dats m 0 c).arrAt 2 0 : sProp 𝕄)
      = ((c.tc : Thread nD τ).loc main_arg1 ↦{sh001} V m c main_arg1) := by
  rw [(arr_whole0 2).set_eq_univ, share_2]; rfl
theorem win_3 (c : Dev nD) :
    ((cfg0.win 3).arr.view.loc (c.tc : Thread nD τ) ↦[(cfg0.win 3).arr.view.set]{(dats m 0 c).share 3} (dats m 0 c).arrAt 3 0 : sProp 𝕄)
      = ((c.tc : Thread nD τ).loc main_arg1 ↦{sh010} V m c main_arg1) := by
  rw [(arr_whole0 3).set_eq_univ, share_3]; rfl
theorem win_4 (c : Dev nD) :
    ((cfg0.win 4).arr.view.loc (c.tc : Thread nD τ) ↦[(cfg0.win 4).arr.view.set]{(dats m 0 c).share 4} (dats m 0 c).arrAt 4 0 : sProp 𝕄)
      = ((c.tc : Thread nD τ).loc main_arg1 ↦{sh011} V m c main_arg1) := by
  rw [(arr_whole0 4).set_eq_univ, share_4]; rfl
theorem win_5 (c : Dev nD) :
    ((cfg0.win 5).arr.view.loc (c.tc : Thread nD τ) ↦[(cfg0.win 5).arr.view.set]{(dats m 0 c).share 5} (dats m 0 c).arrAt 5 0 : sProp 𝕄)
      = ((c.tc : Thread nD τ).loc main_arg1 ↦{sh100} V m c main_arg1) := by
  rw [(arr_whole0 5).set_eq_univ, share_5]; rfl
theorem win_6 (c : Dev nD) :
    ((cfg0.win 6).arr.view.loc (c.tc : Thread nD τ) ↦[(cfg0.win 6).arr.view.set]{(dats m 0 c).share 6} (dats m 0 c).arrAt 6 0 : sProp 𝕄)
      = ((c.tc : Thread nD τ).loc main_arg1 ↦{sh101} V m c main_arg1) := by
  rw [(arr_whole0 6).set_eq_univ, share_6]; rfl
theorem win_7 (c : Dev nD) :
    ((cfg0.win 7).arr.view.loc (c.tc : Thread nD τ) ↦[(cfg0.win 7).arr.view.set]{(dats m 0 c).share 7} (dats m 0 c).arrAt 7 0 : sProp 𝕄)
      = ((c.tc : Thread nD τ).loc main_arg1 ↦{sh110} V m c main_arg1) := by
  rw [(arr_whole0 7).set_eq_univ, share_7]; rfl
theorem win_8 (c : Dev nD) :
    ((cfg0.win 8).arr.view.loc (c.tc : Thread nD τ) ↦[(cfg0.win 8).arr.view.set]{(dats m 0 c).share 8} (dats m 0 c).arrAt 8 0 : sProp 𝕄)
      = ((c.tc : Thread nD τ).loc main_arg1 ↦{sh111} V m c main_arg1) := by
  rw [(arr_whole0 8).set_eq_univ, share_8]; rfl
theorem win_9 (c : Dev nD) :
    ((cfg0.win 9).arr.view.loc (c.tc : Thread nD τ) ↦[(cfg0.win 9).arr.view.set]{(dats m 0 c).share 9} (dats m 0 c).arrAt 9 0 : sProp 𝕄)
      = ((c.tc : Thread nD τ).loc main_v0 ↦{fullShare} V m c main_v0) := by
  rw [(arr_whole0 9).set_eq_univ, share_9]; rfl

/-! ## The split -/

/-- The buffers behind the windows' arrays, each whole at the full share at the entry contents, yield every window's
    array at that window's share at the proof data's entry contents: the streamed array's full share halved three
    times, one eighth to each of its eight windows. -/
theorem arrays_split (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  unfold Pipeline.arrBufs Dat.arrays
  rw [bigSep_eq_bigSepL_of_eq [main_arg0, main_arg1, main_v0] (by decide) (by decide), bigSep_W0]
  beta_reduce
  rw [win_0 m c, win_1 m c, win_2 m c, win_3 m c, win_4 m c, win_5 m c, win_6 m c, win_7 m c, win_8 m c, win_9 m c]
  show (iprop(((c.tc : Thread nD τ).loc main_arg0 ↦{fullShare} V m c main_arg0)
      ∗ ((c.tc : Thread nD τ).loc main_arg1 ↦{fullShare} V m c main_arg1)
      ∗ ((c.tc : Thread nD τ).loc main_v0 ↦{fullShare} V m c main_v0)) : sProp 𝕄) ⊢ _
  iintro ⟨H0, H1, H9⟩
  ihave H1 := (pointsTo_share (PosShare.mem_left_op_right fullShare)).1 $$ H1
  icases H1 with ⟨HL, HR⟩
  ihave HL := (pointsTo_share (PosShare.mem_left_op_right fullShare.left)).1 $$ HL
  icases HL with ⟨HLL, HLR⟩
  ihave HR := (pointsTo_share (PosShare.mem_left_op_right fullShare.right)).1 $$ HR
  icases HR with ⟨HRL, HRR⟩
  ihave HLL := (pointsTo_share (PosShare.mem_left_op_right fullShare.left.left)).1 $$ HLL
  icases HLL with ⟨H000, H001⟩
  ihave HLR := (pointsTo_share (PosShare.mem_left_op_right fullShare.left.right)).1 $$ HLR
  icases HLR with ⟨H010, H011⟩
  ihave HRL := (pointsTo_share (PosShare.mem_left_op_right fullShare.right.left)).1 $$ HRL
  icases HRL with ⟨H100, H101⟩
  ihave HRR := (pointsTo_share (PosShare.mem_left_op_right fullShare.right.right)).1 $$ HRR
  icases HRR with ⟨H110, H111⟩
  isplitl [H0]; · iexact H0
  isplitl [H000]; · iexact H000
  isplitl [H001]; · iexact H001
  isplitl [H010]; · iexact H010
  isplitl [H011]; · iexact H011
  isplitl [H100]; · iexact H100
  isplitl [H101]; · iexact H101
  isplitl [H110]; · iexact H110
  isplitl [H111]; · iexact H111
  iexact H9

end Cert.Kernel.Stream

end
-- ==== Proof.WordStreamFrame.lean ====
/-
  The run of the batched product as one region: every execution terminates without a fault, each window's array
  ends at what the eight write-backs leave in it — an input array, never written, at its contents at launch —
  and hence the two argument arrays end unchanged.
-/
import proofs.«174029_g59390807769544_cont_9to1_m_1017_22_alg».proof.Proof.WordStreamBody
import proofs.«174029_g59390807769544_cont_9to1_m_1017_22_alg».proof.Proof.WordStreamSplit
import proofs.«174029_g59390807769544_cont_9to1_m_1017_22_alg».proof.Proof.LibSharedFrame

set_option maxRecDepth 16384

noncomputable section

namespace Cert.Kernel.Stream

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

variable (m : (ℓ : Loc nD τ sig) → Buf (Elt F) ℓ) (ρ : Dev nD → PrngReg)

set_option backward.isDefEq.respectTransparency.types false in
/-- From any memory with zero counters every weakly fair execution of the program terminates, and every final
    state has every window's array at what the proof data compute after the last batch and every other unscoped
    buffer as launched: the body's obligation at every batch, the one streamed array dealt among its eight windows
    at an eighth of the full share each. -/
theorem run_main : θ_run (defs (F := F)) (onTc (τ := τ) (main (F := F))) (s₀ m ρ) (Pipeline.FramePost cfgs (dats m) 0 (V m)) :=
  SharedFrame.θ_run_frame_shared cfgs (dats m) (0 : Fin 1) defs₀ Variants.none cellOf_inj winFacts₀0 block_pos0 arr_whole0 stage_whole0
    m ρ main (fun c => (body_obligation m c).loose) (fun _ _ => rfl) (V m)
    (Pipeline.hmain_region cfgs 0 defs₀ Variants.none m main fun c => (main_chain c).trans rfl)
    (fun c => arrays_split m c) (fun _ => .rfl) (fun _ => .rfl)

/-- The two argument arrays end unchanged: each is an input window's array, which no write-back touches. -/
theorem frame : θ_run (defs (F := F)) (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨((h c).1 0).trans (((dats m 0 c).arrAt_in 0 rfl _).trans (A_eq m c 0)),
      ((h c).1 1).trans (((dats m 0 c).arrAt_in 1 rfl _).trans (A_eq m c 1))⟩) (run_main m ρ)

end Cert.Kernel.Stream

end
-- ==== Proof.StreamSlab.lean ====
/-
  One row band of the batched product, read at an index. A band is a [256, 2048] slab of the left matrix
  (carried with a leading unit axis) times the whole [2048, 64] right matrix into a zero accumulator, the
  [256, 64] product carried back with a leading unit axis: its entry (0, r, n) is the sum over k of
  slab(0, r, k) · right(k, n), the terms in the order of k.
-/
import proofs.«174029_g59390807769544_cont_9to1_m_1017_22_alg».proof.Proof.Gen.KernelIdeal.Skeleton
import Idealize.ShloMosaic.Lib.Pipeline.Value
import Idealize.ShloMosaic.Lib.ValueIdx
import Idealize.ShloMosaic.PureOps.Ideal.Laws

set_option maxRecDepth 16384

noncomputable section

namespace Cert.KernelIdeal.StreamValue

open Idealize.ShloMosaic Idealize.ShloMosaic.TcCoe Idealize.ShloMosaic.ValueIdx Idealize.SL.Sem
open Cert.KernelIdeal Cert.KernelIdeal.Gen
open scoped BigOperators

/-- The operand indices of the band's product at result index j and contraction position q: the left
    operand is read at (j 0, q), the right at (q, j 1). -/
theorem operand_idx (j : S256x64.Idx) (q : (dot_S256x2048_S2048x64_S256x64_1_0_0_1_n_n).contr.Idx) :
    ((dot_S256x2048_S2048x64_S256x64_1_0_0_1_n_n).lhsIdx j q 0).val = (j 0).val
    ∧ ((dot_S256x2048_S2048x64_S256x64_1_0_0_1_n_n).lhsIdx j q 1).val = (q ⟨0, by decide⟩).val
    ∧ ((dot_S256x2048_S2048x64_S256x64_1_0_0_1_n_n).rhsIdx j q 0).val = (q ⟨0, by decide⟩).val
    ∧ ((dot_S256x2048_S2048x64_S256x64_1_0_0_1_n_n).rhsIdx j q 1).val = (j 1).val :=
  ⟨rfl, rfl, rfl, rfl⟩

/-- The band at (0, r, n), the right matrix already without its unit axis. -/
theorem band_apply (v1 : FVec Ideal S2048x64 .f32) (x : Vec Ideal S1x256x2048 .f32)
    (h1 : S1x256x2048.ShapeCasts S256x2048) (h3 : S256x64.ShapeCasts S1x256x64) (r : Fin 256) (n : Fin 64) :
    shapeCast S1x256x64 (matmul (φ₁ := .f32) (φ₂ := .f32) dot_S256x2048_S2048x64_S256x64_1_0_0_1_n_n none
        (shapeCast S256x2048 x h1 : FVec Ideal S256x2048 .f32) v1
        (constant (F := Ideal) S256x64 .f32 0x00000000#32)) h3 (ix3 (0 : Fin 1) r n)
      = ∑ k : Fin 2048, x (ix3 (0 : Fin 1) r k) * v1 (ix2 k n) := by
  refine (shapeCast_apply _ h3 (ix3 (0 : Fin 1) r n) (ix2 r n) ?_).trans ?_
  · rw [Shape.rowMajor_val_two, Shape.rowMajor_val_three]
    show r.val * 64 + n.val = ((0 * 256 + r.val) * 64 + n.val)
    omega
  simp only [matmul]
  rw [Ideal.matmul_constant_zero_apply,
    ← Equiv.sum_comp (contrEquiv1 dot_S256x2048_S2048x64_S256x64_1_0_0_1_n_n 2048 rfl rfl).symm]
  refine Finset.sum_congr rfl fun k _ => ?_
  have hk := contrEquiv1_symm_val dot_S256x2048_S2048x64_S256x64_1_0_0_1_n_n 2048 rfl rfl k
  obtain ⟨e0, e1, e2, e3⟩ := operand_idx (ix2 r n) ((contrEquiv1 dot_S256x2048_S2048x64_S256x64_1_0_0_1_n_n 2048 rfl rfl).symm k)
  congr 1
  · refine shapeCast_apply x h1 _ (ix3 (0 : Fin 1) r k) ?_
    rw [Shape.rowMajor_val_two, Shape.rowMajor_val_three, e0, e1, hk]
    show ((0 * 256 + r.val) * 2048 + k.val) = r.val * 2048 + k.val
    omega
  · refine congrArg v1 (funext fun a => Fin.ext ?_)
    match a with
    | ⟨0, _⟩ => exact e2.trans hk
    | ⟨1, _⟩ => exact e3

/-- The band at (0, r, n) from the right matrix as loaded, with its unit axis. -/
theorem band_apply' (x0 : Vec Ideal S1x2048x64 .f32) (x : Vec Ideal S1x256x2048 .f32)
    (h0 : S1x2048x64.ShapeCasts S2048x64) (h1 : S1x256x2048.ShapeCasts S256x2048) (h3 : S256x64.ShapeCasts S1x256x64)
    (r : Fin 256) (n : Fin 64) :
    shapeCast S1x256x64 (matmul (φ₁ := .f32) (φ₂ := .f32) dot_S256x2048_S2048x64_S256x64_1_0_0_1_n_n none
        (shapeCast S256x2048 x h1 : FVec Ideal S256x2048 .f32) (shapeCast S2048x64 x0 h0 : FVec Ideal S2048x64 .f32)
        (constant (F := Ideal) S256x64 .f32 0x00000000#32)) h3 (ix3 (0 : Fin 1) r n)
      = ∑ k : Fin 2048, x (ix3 (0 : Fin 1) r k) * x0 (ix3 (0 : Fin 1) k n) := by
  rw [band_apply]
  refine Finset.sum_congr rfl fun k _ => ?_
  congr 1
  refine shapeCast_apply x0 h0 _ (ix3 (0 : Fin 1) k n) ?_
  rw [Shape.rowMajor_val_two, Shape.rowMajor_val_three]
  show ((0 * 2048 + k.val) * 64 + n.val) = k.val * 64 + n.val
  omega

/-! ## The eight stores' payloads: each is the band of its own slab -/

theorem pay_band0 (x0 : Vec Ideal S1x2048x64 .f32) (x : Vec Ideal S1x256x2048 .f32) (r : Fin 256) (n : Fin 64) :
    k0_pay2 (F := Ideal) x0 x (ix3 (0 : Fin 1) r n) = ∑ k : Fin 2048, x (ix3 (0 : Fin 1) r k) * x0 (ix3 (0 : Fin 1) k n) :=
  band_apply' x0 x _ _ _ r n

theorem pay_band1 (x0 : Vec Ideal S1x2048x64 .f32) (x : Vec Ideal S1x256x2048 .f32) (r : Fin 256) (n : Fin 64) :
    k0_pay3 (F := Ideal) x0 x (ix3 (0 : Fin 1) r n) = ∑ k : Fin 2048, x (ix3 (0 : Fin 1) r k) * x0 (ix3 (0 : Fin 1) k n) :=
  band_apply' x0 x _ _ _ r n

theorem pay_band2 (x0 : Vec Ideal S1x2048x64 .f32) (x : Vec Ideal S1x256x2048 .f32) (r : Fin 256) (n : Fin 64) :
    k0_pay4 (F := Ideal) x0 x (ix3 (0 : Fin 1) r n) = ∑ k : Fin 2048, x (ix3 (0 : Fin 1) r k) * x0 (ix3 (0 : Fin 1) k n) :=
  band_apply' x0 x _ _ _ r n

theorem pay_band3 (x0 : Vec Ideal S1x2048x64 .f32) (x : Vec Ideal S1x256x2048 .f32) (r : Fin 256) (n : Fin 64) :
    k0_pay6 (F := Ideal) (k0_pay5 x0 x) (ix3 (0 : Fin 1) r n) = ∑ k : Fin 2048, x (ix3 (0 : Fin 1) r k) * x0 (ix3 (0 : Fin 1) k n) :=
  band_apply' x0 x _ _ _ r n

theorem pay_band4 (x0 : Vec Ideal S1x2048x64 .f32) (x : Vec Ideal S1x256x2048 .f32) (r : Fin 256) (n : Fin 64) :
    k0_pay7 (F := Ideal) (k0_pay1 x0) x (ix3 (0 : Fin 1) r n) = ∑ k : Fin 2048, x (ix3 (0 : Fin 1) r k) * x0 (ix3 (0 : Fin 1) k n) :=
  band_apply' x0 x _ _ _ r n

theorem pay_band5 (x0 : Vec Ideal S1x2048x64 .f32) (x : Vec Ideal S1x256x2048 .f32) (r : Fin 256) (n : Fin 64) :
    k0_pay8 (F := Ideal) (k0_pay1 x0) x (ix3 (0 : Fin 1) r n) = ∑ k : Fin 2048, x (ix3 (0 : Fin 1) r k) * x0 (ix3 (0 : Fin 1) k n) :=
  band_apply' x0 x _ _ _ r n

theorem pay_band6 (x0 : Vec Ideal S1x2048x64 .f32) (x : Vec Ideal S1x256x2048 .f32) (r : Fin 256) (n : Fin 64) :
    k0_pay9 (F := Ideal) (k0_pay1 x0) x (ix3 (0 : Fin 1) r n) = ∑ k : Fin 2048, x (ix3 (0 : Fin 1) r k) * x0 (ix3 (0 : Fin 1) k n) :=
  band_apply' x0 x _ _ _ r n

theorem pay_band7 (x0 : Vec Ideal S1x2048x64 .f32) (x : Vec Ideal S1x256x2048 .f32) (r : Fin 256) (n : Fin 64) :
    k0_pay10 (F := Ideal) (k0_pay1 x0) x (ix3 (0 : Fin 1) r n) = ∑ k : Fin 2048, x (ix3 (0 : Fin 1) r k) * x0 (ix3 (0 : Fin 1) k n) :=
  band_apply' x0 x _ _ _ r n

end Cert.KernelIdeal.StreamValue

end
-- ==== Proof.StreamBlock.lean ====
/-
  The output block after the body, band by band. The body's eight stores fill the [1, 2048, 64] block through eight
  disjoint row bands of 256 rows, band j with the product of the j-th row slab of the left matrix and the whole right
  matrix. So a function on the block that agrees with band j's product under band j's rectangle, for every j, is the
  block: every row of the block lies in exactly one band.
-/
import proofs.«174029_g59390807769544_cont_9to1_m_1017_22_alg».proof.Proof.StreamData
import proofs.«174029_g59390807769544_cont_9to1_m_1017_22_alg».proof.Proof.StreamSlab
import Idealize.ShloMosaic.Lib.Pipeline.Value
import Idealize.ShloMosaic.Lib.Tactic

set_option maxRecDepth 16384

noncomputable section

namespace Cert.KernelIdeal.StreamValue

open Idealize.ShloMosaic Idealize.ShloMosaic.TcCoe Idealize.ShloMosaic.ValueIdx Idealize.SL.Sem
open Cert.KernelIdeal Cert.KernelIdeal.Gen
open scoped BigOperators

/-- The zero offsets of a whole-buffer rectangle, as the constant function. -/
theorem hz : (![0, 0, 0] : Fin 3 → Nat) = fun _ => 0 := funext fun a => by fin_cases a <;> rfl

/-! ## The block: its eight bands -/

/-- An index of a band is (0, r, n). -/
theorem idx_unit (x : S1x256x64.Idx) : ∃ (r : Fin 256) (n : Fin 64), x = ix3 (0 : Fin 1) r n :=
  ⟨x 1, x 2, funext fun a => by
    match a with
    | ⟨0, _⟩ => exact Fin.ext (Nat.lt_one_iff.mp (x 0).isLt)
    | ⟨1, _⟩ => rfl
    | ⟨2, _⟩ => rfl⟩

/-- A function on the block that reads, under every band's rectangle, that band's product, is what the body
    leaves: every row of the block is in one of the eight bands. -/
theorem outBlock_eq_of_bands (x0 : Vec Ideal S1x2048x64 .f32) (x1 x2 x3 x4 x5 x6 x7 x8 : Vec Ideal S1x256x2048 .f32)
    (G : S1x2048x64.Idx → EReal)
    (h0 : ∀ (r : Fin 256) (n : Fin 64), G (Stream.rO0.emb (ix3 (0 : Fin 1) r n)) = ∑ k : Fin 2048, x1 (ix3 (0 : Fin 1) r k) * x0 (ix3 (0 : Fin 1) k n))
    (h1 : ∀ (r : Fin 256) (n : Fin 64), G (Stream.rO1.emb (ix3 (0 : Fin 1) r n)) = ∑ k : Fin 2048, x2 (ix3 (0 : Fin 1) r k) * x0 (ix3 (0 : Fin 1) k n))
    (h2 : ∀ (r : Fin 256) (n : Fin 64), G (Stream.rO2.emb (ix3 (0 : Fin 1) r n)) = ∑ k : Fin 2048, x3 (ix3 (0 : Fin 1) r k) * x0 (ix3 (0 : Fin 1) k n))
    (h3 : ∀ (r : Fin 256) (n : Fin 64), G (Stream.rO3.emb (ix3 (0 : Fin 1) r n)) = ∑ k : Fin 2048, x4 (ix3 (0 : Fin 1) r k) * x0 (ix3 (0 : Fin 1) k n))
    (h4 : ∀ (r : Fin 256) (n : Fin 64), G (Stream.rO4.emb (ix3 (0 : Fin 1) r n)) = ∑ k : Fin 2048, x5 (ix3 (0 : Fin 1) r k) * x0 (ix3 (0 : Fin 1) k n))
    (h5 : ∀ (r : Fin 256) (n : Fin 64), G (Stream.rO5.emb (ix3 (0 : Fin 1) r n)) = ∑ k : Fin 2048, x6 (ix3 (0 : Fin 1) r k) * x0 (ix3 (0 : Fin 1) k n))
    (h6 : ∀ (r : Fin 256) (n : Fin 64), G (Stream.rO6.emb (ix3 (0 : Fin 1) r n)) = ∑ k : Fin 2048, x7 (ix3 (0 : Fin 1) r k) * x0 (ix3 (0 : Fin 1) k n))
    (h7 : ∀ (r : Fin 256) (n : Fin 64), G (Stream.rO7.emb (ix3 (0 : Fin 1) r n)) = ∑ k : Fin 2048, x8 (ix3 (0 : Fin 1) r k) * x0 (ix3 (0 : Fin 1) k n)) :
    Stream.outBlock x0 x1 x2 x3 x4 x5 x6 x7 x8 = G := by
  funext y
  unfold Stream.outBlock
  simp only [View.ld_unit_zero (S := S1x2048x64) hz, View.ld_unit_zero (S := S1x256x2048) hz]
  refine View.canon_apply_of_pieces (Val := Elt Ideal) (e := .f32) G _ ?_ y ?_
  swap
  · exact View.cover_of_tiled (s := S1x2048x64) _ ![1, 256, 64] (by rfl) y
  intro p hp
  simp only [List.mem_cons, List.not_mem_nil, or_false] at hp
  rcases hp with rfl | rfl | rfl | rfl | rfl | rfl | rfl | rfl <;> intro x <;>
    obtain ⟨r, n, rfl⟩ := idx_unit x
  · exact (pay_band7 x0 x8 r n).trans (h7 r n).symm
  · exact (pay_band6 x0 x7 r n).trans (h6 r n).symm
  · exact (pay_band5 x0 x6 r n).trans (h5 r n).symm
  · exact (pay_band4 x0 x5 r n).trans (h4 r n).symm
  · exact (pay_band3 x0 x4 r n).trans (h3 r n).symm
  · exact (pay_band2 x0 x3 r n).trans (h2 r n).symm
  · exact (pay_band1 x0 x2 r n).trans (h1 r n).symm
  · exact (pay_band0 x0 x1 r n).trans (h0 r n).symm

end Cert.KernelIdeal.StreamValue

end
-- ==== Proof.StreamValue.lean ====
/-
  The output array after the eight write-backs is the batched product of the two argument arrays.
  At batch b the output block's row band j (rows 256·j … 256·j + 255) holds (slab j of A[b]) · f[b], slab j being
  rows 256·j … 256·j + 255 of A[b]: so the block's entry (0, ρ, n) is the sum over k of A(b, ρ, k) · f(b, k, n), which
  is the product's entry (b, ρ, n), the terms in the same order of k. The eight blocks tile the array, one per batch.
-/
import proofs.«174029_g59390807769544_cont_9to1_m_1017_22_alg».proof.Proof.StreamBlock
import proofs.«174029_g59390807769544_cont_9to1_m_1017_22_alg».proof.Proof.Gen.ReferenceIdeal.Read
import Idealize.ShloMosaic.Lib.Pipeline.Value
import Idealize.ShloMosaic.Lib.Tactic

set_option maxRecDepth 16384

noncomputable section

namespace Cert.KernelIdeal.StreamValue

open Idealize.ShloMosaic Idealize.ShloMosaic.TcCoe Idealize.ShloMosaic.ValueIdx Idealize.SL.Sem
open Cert.KernelIdeal Cert.KernelIdeal.Gen
open scoped BigOperators

open Idealize.ShloMosaic.Pipeline (Dat)
open Cert.ReferenceIdeal.Read (val_main_v0 val_main_v0_apply lidx_main_v0 ridx_main_v0)

variable (m : (ℓ : Loc nD τ sig) → Buf (Elt Ideal) ℓ)

/-! ## The windows' block indices, decided over the eight batches

At batch t the right factor's window and the output's sit at block (t, 0, 0), and the left factor's j-th window at
block (t, j, 0) of row slabs. -/

theorem idx_w0 : ∀ t : Fin cfg0.N, win0_0.index t (0 : Fin 3) = t.val ∧ win0_0.index t (1 : Fin 3) = 0 ∧ win0_0.index t (2 : Fin 3) = 0 :=
  (by decide +kernel : ∀ t : Fin grid0.N, _)
theorem idx_w1 : ∀ t : Fin cfg0.N, win0_1.index t (0 : Fin 3) = t.val ∧ win0_1.index t (1 : Fin 3) = 0 ∧ win0_1.index t (2 : Fin 3) = 0 :=
  (by decide +kernel : ∀ t : Fin grid0.N, _)
theorem idx_w2 : ∀ t : Fin cfg0.N, win0_2.index t (0 : Fin 3) = t.val ∧ win0_2.index t (1 : Fin 3) = 1 ∧ win0_2.index t (2 : Fin 3) = 0 :=
  (by decide +kernel : ∀ t : Fin grid0.N, _)
theorem idx_w3 : ∀ t : Fin cfg0.N, win0_3.index t (0 : Fin 3) = t.val ∧ win0_3.index t (1 : Fin 3) = 2 ∧ win0_3.index t (2 : Fin 3) = 0 :=
  (by decide +kernel : ∀ t : Fin grid0.N, _)
theorem idx_w4 : ∀ t : Fin cfg0.N, win0_4.index t (0 : Fin 3) = t.val ∧ win0_4.index t (1 : Fin 3) = 3 ∧ win0_4.index t (2 : Fin 3) = 0 :=
  (by decide +kernel : ∀ t : Fin grid0.N, _)
theorem idx_w5 : ∀ t : Fin cfg0.N, win0_5.index t (0 : Fin 3) = t.val ∧ win0_5.index t (1 : Fin 3) = 4 ∧ win0_5.index t (2 : Fin 3) = 0 :=
  (by decide +kernel : ∀ t : Fin grid0.N, _)
theorem idx_w6 : ∀ t : Fin cfg0.N, win0_6.index t (0 : Fin 3) = t.val ∧ win0_6.index t (1 : Fin 3) = 5 ∧ win0_6.index t (2 : Fin 3) = 0 :=
  (by decide +kernel : ∀ t : Fin grid0.N, _)
theorem idx_w7 : ∀ t : Fin cfg0.N, win0_7.index t (0 : Fin 3) = t.val ∧ win0_7.index t (1 : Fin 3) = 6 ∧ win0_7.index t (2 : Fin 3) = 0 :=
  (by decide +kernel : ∀ t : Fin grid0.N, _)
theorem idx_w8 : ∀ t : Fin cfg0.N, win0_8.index t (0 : Fin 3) = t.val ∧ win0_8.index t (1 : Fin 3) = 7 ∧ win0_8.index t (2 : Fin 3) = 0 :=
  (by decide +kernel : ∀ t : Fin grid0.N, _)
theorem idx_w9 : ∀ t : Fin cfg0.N, win0_9.index t (0 : Fin 3) = t.val ∧ win0_9.index t (1 : Fin 3) = 0 ∧ win0_9.index t (2 : Fin 3) = 0 :=
  (by decide +kernel : ∀ t : Fin grid0.N, _)

/-! ## The product at an index, from any naming of the operands' indices -/

/-- The product's entry at i is the sum over k of the left array at u k times the right array at v k, whenever u k and
    v k have the coordinates (i 0, i 1, k) and (i 0, k, i 2). -/
theorem prod_apply (A0 : S8x2048x64.Idx → EReal) (A1 : S8x2048x2048.Idx → EReal) (i : S8x2048x64.Idx)
    (u : Fin 2048 → S8x2048x2048.Idx) (v : Fin 2048 → S8x2048x64.Idx)
    (hu : ∀ k, (u k 0).val = (i 0).val ∧ (u k 1).val = (i 1).val ∧ (u k 2).val = k.val)
    (hv : ∀ k, (v k 0).val = (i 0).val ∧ (v k 1).val = k.val ∧ (v k 2).val = (i 2).val) :
    val_main_v0 (F := Ideal) A0 A1 i = ∑ k : Fin 2048, A1 (u k) * A0 (v k) := by
  rw [val_main_v0_apply]
  refine Finset.sum_congr rfl fun k _ => ?_
  obtain ⟨u0, u1, u2⟩ := hu k
  obtain ⟨v0, v1, v2⟩ := hv k
  have eu : lidx_main_v0 i k = u k := funext fun a => Fin.ext (by
    match a with
    | ⟨0, _⟩ => exact u0.symm
    | ⟨1, _⟩ => exact u1.symm
    | ⟨2, _⟩ => exact u2.symm)
  have ev : ridx_main_v0 i k = v k := funext fun a => Fin.ext (by
    match a with
    | ⟨0, _⟩ => exact v0.symm
    | ⟨1, _⟩ => exact v1.symm
    | ⟨2, _⟩ => exact v2.symm)
  rw [eu, ev]

/-! ## What a batch writes back -/

/-- The right factor f and the left factor A, as launched. -/
abbrev argF (c : Dev nD) : S8x2048x64.Idx → EReal := Stream.V m c main_arg0
abbrev argA (c : Dev nD) : S8x2048x2048.Idx → EReal := Stream.V m c main_arg1

/-- The product of the two argument arrays as launched. -/
abbrev prod (c : Dev nD) : S8x2048x64.Idx → EReal := val_main_v0 (F := Ideal) (argF m c) (argA m c)

/-- What batch t writes back is block t of the product: under band j the block holds the product of the j-th row slab
    of the left array's batch t with the right array's batch t, and a block's coordinate in its array is its block
    index times the block's size plus the coordinate inside the block. -/
theorem flushed_eq (c : Dev nD) (t : Fin cfg0.N) :
    (Stream.dats m 0 c).flushed 9 t = ((cfg0.win 9).blk t).view.read (Elt Ideal) (prod m c) := by
  show (cfg0.win 9).cut (grid0.coords t) ((Stream.dats m 0 c).after 9 t) = _
  rw [Stream.after_9]
  obtain ⟨f0, f1, f2⟩ := idx_w0 t
  obtain ⟨o0, o1, o2⟩ := idx_w9 t
  refine outBlock_eq_of_bands _ _ _ _ _ _ _ _ _ _ ?_ ?_ ?_ ?_ ?_ ?_ ?_ ?_
  · intro r n
    obtain ⟨a0, a1, a2⟩ := idx_w1 t
    show prod m c (((cfg0.win 9).blk t).view.emb (Stream.rO0.emb (ix3 (0 : Fin 1) r n)))
      = ∑ k : Fin 2048, argA m c (((cfg0.win 1).blk t).view.emb (ix3 (0 : Fin 1) r k))
          * argF m c (((cfg0.win 0).blk t).view.emb (ix3 (0 : Fin 1) k n))
    refine prod_apply _ _ _ _ _ (fun k => ⟨?_, ?_, ?_⟩) (fun k => ⟨?_, ?_, ?_⟩)
    · show win0_1.index t (0 : Fin 3) * 1 + 1 * 0 = win0_9.index t (0 : Fin 3) * 1 + 1 * (0 + 1 * 0)
      omega
    · show win0_1.index t (1 : Fin 3) * 256 + 1 * r.val = win0_9.index t (1 : Fin 3) * 2048 + 1 * (0 + 1 * r.val)
      omega
    · show win0_1.index t (2 : Fin 3) * 2048 + 1 * k.val = k.val
      omega
    · show win0_0.index t (0 : Fin 3) * 1 + 1 * 0 = win0_9.index t (0 : Fin 3) * 1 + 1 * (0 + 1 * 0)
      omega
    · show win0_0.index t (1 : Fin 3) * 2048 + 1 * k.val = k.val
      omega
    · show win0_0.index t (2 : Fin 3) * 64 + 1 * n.val = win0_9.index t (2 : Fin 3) * 64 + 1 * (0 + 1 * n.val)
      omega
  · intro r n
    obtain ⟨a0, a1, a2⟩ := idx_w2 t
    show prod m c (((cfg0.win 9).blk t).view.emb (Stream.rO1.emb (ix3 (0 : Fin 1) r n)))
      = ∑ k : Fin 2048, argA m c (((cfg0.win 2).blk t).view.emb (ix3 (0 : Fin 1) r k))
          * argF m c (((cfg0.win 0).blk t).view.emb (ix3 (0 : Fin 1) k n))
    refine prod_apply _ _ _ _ _ (fun k => ⟨?_, ?_, ?_⟩) (fun k => ⟨?_, ?_, ?_⟩)
    · show win0_2.index t (0 : Fin 3) * 1 + 1 * 0 = win0_9.index t (0 : Fin 3) * 1 + 1 * (0 + 1 * 0)
      omega
    · show win0_2.index t (1 : Fin 3) * 256 + 1 * r.val = win0_9.index t (1 : Fin 3) * 2048 + 1 * (256 + 1 * r.val)
      omega
    · show win0_2.index t (2 : Fin 3) * 2048 + 1 * k.val = k.val
      omega
    · show win0_0.index t (0 : Fin 3) * 1 + 1 * 0 = win0_9.index t (0 : Fin 3) * 1 + 1 * (0 + 1 * 0)
      omega
    · show win0_0.index t (1 : Fin 3) * 2048 + 1 * k.val = k.val
      omega
    · show win0_0.index t (2 : Fin 3) * 64 + 1 * n.val = win0_9.index t (2 : Fin 3) * 64 + 1 * (0 + 1 * n.val)
      omega
  · intro r n
    obtain ⟨a0, a1, a2⟩ := idx_w3 t
    show prod m c (((cfg0.win 9).blk t).view.emb (Stream.rO2.emb (ix3 (0 : Fin 1) r n)))
      = ∑ k : Fin 2048, argA m c (((cfg0.win 3).blk t).view.emb (ix3 (0 : Fin 1) r k))
          * argF m c (((cfg0.win 0).blk t).view.emb (ix3 (0 : Fin 1) k n))
    refine prod_apply _ _ _ _ _ (fun k => ⟨?_, ?_, ?_⟩) (fun k => ⟨?_, ?_, ?_⟩)
    · show win0_3.index t (0 : Fin 3) * 1 + 1 * 0 = win0_9.index t (0 : Fin 3) * 1 + 1 * (0 + 1 * 0)
      omega
    · show win0_3.index t (1 : Fin 3) * 256 + 1 * r.val = win0_9.index t (1 : Fin 3) * 2048 + 1 * (512 + 1 * r.val)
      omega
    · show win0_3.index t (2 : Fin 3) * 2048 + 1 * k.val = k.val
      omega
    · show win0_0.index t (0 : Fin 3) * 1 + 1 * 0 = win0_9.index t (0 : Fin 3) * 1 + 1 * (0 + 1 * 0)
      omega
    · show win0_0.index t (1 : Fin 3) * 2048 + 1 * k.val = k.val
      omega
    · show win0_0.index t (2 : Fin 3) * 64 + 1 * n.val = win0_9.index t (2 : Fin 3) * 64 + 1 * (0 + 1 * n.val)
      omega
  · intro r n
    obtain ⟨a0, a1, a2⟩ := idx_w4 t
    show prod m c (((cfg0.win 9).blk t).view.emb (Stream.rO3.emb (ix3 (0 : Fin 1) r n)))
      = ∑ k : Fin 2048, argA m c (((cfg0.win 4).blk t).view.emb (ix3 (0 : Fin 1) r k))
          * argF m c (((cfg0.win 0).blk t).view.emb (ix3 (0 : Fin 1) k n))
    refine prod_apply _ _ _ _ _ (fun k => ⟨?_, ?_, ?_⟩) (fun k => ⟨?_, ?_, ?_⟩)
    · show win0_4.index t (0 : Fin 3) * 1 + 1 * 0 = win0_9.index t (0 : Fin 3) * 1 + 1 * (0 + 1 * 0)
      omega
    · show win0_4.index t (1 : Fin 3) * 256 + 1 * r.val = win0_9.index t (1 : Fin 3) * 2048 + 1 * (768 + 1 * r.val)
      omega
    · show win0_4.index t (2 : Fin 3) * 2048 + 1 * k.val = k.val
      omega
    · show win0_0.index t (0 : Fin 3) * 1 + 1 * 0 = win0_9.index t (0 : Fin 3) * 1 + 1 * (0 + 1 * 0)
      omega
    · show win0_0.index t (1 : Fin 3) * 2048 + 1 * k.val = k.val
      omega
    · show win0_0.index t (2 : Fin 3) * 64 + 1 * n.val = win0_9.index t (2 : Fin 3) * 64 + 1 * (0 + 1 * n.val)
      omega
  · intro r n
    obtain ⟨a0, a1, a2⟩ := idx_w5 t
    show prod m c (((cfg0.win 9).blk t).view.emb (Stream.rO4.emb (ix3 (0 : Fin 1) r n)))
      = ∑ k : Fin 2048, argA m c (((cfg0.win 5).blk t).view.emb (ix3 (0 : Fin 1) r k))
          * argF m c (((cfg0.win 0).blk t).view.emb (ix3 (0 : Fin 1) k n))
    refine prod_apply _ _ _ _ _ (fun k => ⟨?_, ?_, ?_⟩) (fun k => ⟨?_, ?_, ?_⟩)
    · show win0_5.index t (0 : Fin 3) * 1 + 1 * 0 = win0_9.index t (0 : Fin 3) * 1 + 1 * (0 + 1 * 0)
      omega
    · show win0_5.index t (1 : Fin 3) * 256 + 1 * r.val = win0_9.index t (1 : Fin 3) * 2048 + 1 * (1024 + 1 * r.val)
      omega
    · show win0_5.index t (2 : Fin 3) * 2048 + 1 * k.val = k.val
      omega
    · show win0_0.index t (0 : Fin 3) * 1 + 1 * 0 = win0_9.index t (0 : Fin 3) * 1 + 1 * (0 + 1 * 0)
      omega
    · show win0_0.index t (1 : Fin 3) * 2048 + 1 * k.val = k.val
      omega
    · show win0_0.index t (2 : Fin 3) * 64 + 1 * n.val = win0_9.index t (2 : Fin 3) * 64 + 1 * (0 + 1 * n.val)
      omega
  · intro r n
    obtain ⟨a0, a1, a2⟩ := idx_w6 t
    show prod m c (((cfg0.win 9).blk t).view.emb (Stream.rO5.emb (ix3 (0 : Fin 1) r n)))
      = ∑ k : Fin 2048, argA m c (((cfg0.win 6).blk t).view.emb (ix3 (0 : Fin 1) r k))
          * argF m c (((cfg0.win 0).blk t).view.emb (ix3 (0 : Fin 1) k n))
    refine prod_apply _ _ _ _ _ (fun k => ⟨?_, ?_, ?_⟩) (fun k => ⟨?_, ?_, ?_⟩)
    · show win0_6.index t (0 : Fin 3) * 1 + 1 * 0 = win0_9.index t (0 : Fin 3) * 1 + 1 * (0 + 1 * 0)
      omega
    · show win0_6.index t (1 : Fin 3) * 256 + 1 * r.val = win0_9.index t (1 : Fin 3) * 2048 + 1 * (1280 + 1 * r.val)
      omega
    · show win0_6.index t (2 : Fin 3) * 2048 + 1 * k.val = k.val
      omega
    · show win0_0.index t (0 : Fin 3) * 1 + 1 * 0 = win0_9.index t (0 : Fin 3) * 1 + 1 * (0 + 1 * 0)
      omega
    · show win0_0.index t (1 : Fin 3) * 2048 + 1 * k.val = k.val
      omega
    · show win0_0.index t (2 : Fin 3) * 64 + 1 * n.val = win0_9.index t (2 : Fin 3) * 64 + 1 * (0 + 1 * n.val)
      omega
  · intro r n
    obtain ⟨a0, a1, a2⟩ := idx_w7 t
    show prod m c (((cfg0.win 9).blk t).view.emb (Stream.rO6.emb (ix3 (0 : Fin 1) r n)))
      = ∑ k : Fin 2048, argA m c (((cfg0.win 7).blk t).view.emb (ix3 (0 : Fin 1) r k))
          * argF m c (((cfg0.win 0).blk t).view.emb (ix3 (0 : Fin 1) k n))
    refine prod_apply _ _ _ _ _ (fun k => ⟨?_, ?_, ?_⟩) (fun k => ⟨?_, ?_, ?_⟩)
    · show win0_7.index t (0 : Fin 3) * 1 + 1 * 0 = win0_9.index t (0 : Fin 3) * 1 + 1 * (0 + 1 * 0)
      omega
    · show win0_7.index t (1 : Fin 3) * 256 + 1 * r.val = win0_9.index t (1 : Fin 3) * 2048 + 1 * (1536 + 1 * r.val)
      omega
    · show win0_7.index t (2 : Fin 3) * 2048 + 1 * k.val = k.val
      omega
    · show win0_0.index t (0 : Fin 3) * 1 + 1 * 0 = win0_9.index t (0 : Fin 3) * 1 + 1 * (0 + 1 * 0)
      omega
    · show win0_0.index t (1 : Fin 3) * 2048 + 1 * k.val = k.val
      omega
    · show win0_0.index t (2 : Fin 3) * 64 + 1 * n.val = win0_9.index t (2 : Fin 3) * 64 + 1 * (0 + 1 * n.val)
      omega
  · intro r n
    obtain ⟨a0, a1, a2⟩ := idx_w8 t
    show prod m c (((cfg0.win 9).blk t).view.emb (Stream.rO7.emb (ix3 (0 : Fin 1) r n)))
      = ∑ k : Fin 2048, argA m c (((cfg0.win 8).blk t).view.emb (ix3 (0 : Fin 1) r k))
          * argF m c (((cfg0.win 0).blk t).view.emb (ix3 (0 : Fin 1) k n))
    refine prod_apply _ _ _ _ _ (fun k => ⟨?_, ?_, ?_⟩) (fun k => ⟨?_, ?_, ?_⟩)
    · show win0_8.index t (0 : Fin 3) * 1 + 1 * 0 = win0_9.index t (0 : Fin 3) * 1 + 1 * (0 + 1 * 0)
      omega
    · show win0_8.index t (1 : Fin 3) * 256 + 1 * r.val = win0_9.index t (1 : Fin 3) * 2048 + 1 * (1792 + 1 * r.val)
      omega
    · show win0_8.index t (2 : Fin 3) * 2048 + 1 * k.val = k.val
      omega
    · show win0_0.index t (0 : Fin 3) * 1 + 1 * 0 = win0_9.index t (0 : Fin 3) * 1 + 1 * (0 + 1 * 0)
      omega
    · show win0_0.index t (1 : Fin 3) * 2048 + 1 * k.val = k.val
      omega
    · show win0_0.index t (2 : Fin 3) * 64 + 1 * n.val = win0_9.index t (2 : Fin 3) * 64 + 1 * (0 + 1 * n.val)
      omega

/-! ## The eight blocks tile the array -/

/-- An index of the output array is in batch t's block iff each coordinate is in the block's range on its axis. -/
theorem mem_blk (t : Fin cfg0.N) (i : S8x2048x64.Idx) :
    i ∈ ((cfg0.win 9).blk t).view.set ↔ ∀ a : Fin 3, win0_9.index t a * S1x2048x64.size a ≤ (i a).val
      ∧ (i a).val < win0_9.index t a * S1x2048x64.size a + S1x2048x64.size a := by
  show i ∈ ((View.whole main_v0).slice (win0_9.rect t)).set ↔ _
  rw [View.set_slice_whole, Rect.mem_set_unit]
  exact Iff.rfl

/-- Every index (b, ρ, n) of the output array is in the block batch b writes back. -/
theorem cover (i : S8x2048x64.Idx) :
    ∃ t : Fin cfg0.N, (cfg0.win 9).flush t = true ∧ i ∈ ((cfg0.win 9).blk t).view.set := by
  have hi0 : (i 0).val < 8 := (i 0).isLt
  have hi1 : (i 1).val < 2048 := (i 1).isLt
  have hi2 : (i 2).val < 64 := (i 2).isLt
  obtain ⟨t, ht⟩ : ∃ t : Fin cfg0.N, t.val = (i 0).val := ⟨⟨(i 0).val, by rw [show cfg0.N = 8 from N_0]; exact hi0⟩, rfl⟩
  obtain ⟨o0, o1, o2⟩ := idx_w9 t
  refine ⟨t, flush0_9 t, ?_⟩
  rw [mem_blk]
  intro a
  match a with
  | ⟨0, _⟩ => show win0_9.index t (0 : Fin 3) * 1 ≤ (i 0).val ∧ (i 0).val < win0_9.index t (0 : Fin 3) * 1 + 1; omega
  | ⟨1, _⟩ => show win0_9.index t (1 : Fin 3) * 2048 ≤ (i 1).val ∧ (i 1).val < win0_9.index t (1 : Fin 3) * 2048 + 2048; omega
  | ⟨2, _⟩ => show win0_9.index t (2 : Fin 3) * 64 ≤ (i 2).val ∧ (i 2).val < win0_9.index t (2 : Fin 3) * 64 + 64; omega

/-! ## The array after the run -/

/-- After the eight write-backs the output array is the product of the two argument arrays as launched. -/
theorem final (c : Dev nD) :
    (Stream.dats (F := Ideal) m 0 c).arrAt 9 cfg0.N
      = val_main_v0 (F := Ideal) (Stream.V m c main_arg0) (Stream.V m c main_arg1) :=
  (Stream.dats m 0 c).arrAt_eq_of_cover 9 (prod m c) (fun t _ => flushed_eq m c t) cover

end Cert.KernelIdeal.StreamValue

end
-- ==== Proof.lean ====
/-
  The batched product out[b] = A[b] · f[b] (A : [8, 2048, 2048], f : [8, 2048, 64]) as one region over the 8
  batches, against one host product.

  At batch b the region stages f[b] whole and A[b] as eight row slabs of 256 rows — eight windows onto the ONE
  array A —, the body stores (slab j) · f[b] into rows 256·j … 256·j + 255 of the output block, and the block is
  written back to out[b]. So out(b, r, n) = Σ_k A(b, r, k) · f(b, k, n), a sum of 2048 products in the order of k:
  exactly the entry of the host's product. No law of the extended reals beyond reading both sides as that sum
  is used, so the inputs' finiteness is never opened.

  The frames: the body only reads its nine input buffers and overwrites the output's, and the eight windows onto
  A each hold A at one eighth of the full share (the full share halved three times), which is enough to read it;
  the shares come back at the end with A's contents unchanged. The same text proves the frame of the word-level
  program and of its reading over the extended reals.
-/
import proofs.«174029_g59390807769544_cont_9to1_m_1017_22_alg».proof.Defs
import proofs.«174029_g59390807769544_cont_9to1_m_1017_22_alg».proof.Proof.StreamFrame
import proofs.«174029_g59390807769544_cont_9to1_m_1017_22_alg».proof.Proof.WordStreamFrame
import proofs.«174029_g59390807769544_cont_9to1_m_1017_22_alg».proof.Proof.StreamValue
import proofs.«174029_g59390807769544_cont_9to1_m_1017_22_alg».proof.Proof.Gen.Kernel
import proofs.«174029_g59390807769544_cont_9to1_m_1017_22_alg».proof.Proof.Gen.KernelIdeal
import proofs.«174029_g59390807769544_cont_9to1_m_1017_22_alg».proof.Proof.Gen.ReferenceIdeal
import proofs.«174029_g59390807769544_cont_9to1_m_1017_22_alg».proof.Proof.Gen.ReferenceIdeal.Run
import proofs.«174029_g59390807769544_cont_9to1_m_1017_22_alg».proof.Proof.Gen.ReferenceIdeal.Read
import proofs.«174029_g59390807769544_cont_9to1_m_1017_22_alg».proof.Proof.Gen.Pre_finite_inputs
import Idealize.ShloMosaic.Adequacy
import Idealize.ShloMosaic.Init

set_option maxRecDepth 16384

noncomputable section

namespace Cert.Proof

open Idealize.ShloMosaic Idealize.ShloMosaic.TcCoe Idealize.SL.Sem

theorem frame_k : Cert.frame_Kernel := fun m ρ _ => Cert.Kernel.Stream.frame m ρ

theorem frame_ki : Cert.frame_KernelIdeal := fun m ρ _ => Cert.KernelIdeal.Stream.frame m ρ

/-- The reference is one host product: its run ends with the arguments unchanged. -/
theorem frame_ri : Cert.frame_ReferenceIdeal := fun m ρ _ =>
  (θ_run Cert.ReferenceIdeal.defs _ _).mono (fun _ h c => (h c).2) (Cert.ReferenceIdeal.Value.run (F := Ideal) m ρ)

/-- Nothing of the kernel was rewritten for its reading over the extended reals. -/
theorem preserves : Cert.preserves_Kernel_KernelIdeal := trivial

/-- Over the extended reals both programs end with the result array at out(b, r, n) = Σ_k A(b, r, k) · f(b, k, n):
    the kernel's eight write-backs leave it (`StreamValue.final`), and it is the reference's one product of
    arguments that agree. -/
theorem algebraic :
    Cert.algebraic_KernelIdeal_ReferenceIdeal := by
  intro m ρ m' ρ' _ hagree
  refine ⟨fun c => Cert.ReferenceIdeal.Read.val_main_v0 (F := Ideal) (Cert.KernelIdeal.Stream.V m c Cert.KernelIdeal.main_arg0) (Cert.KernelIdeal.Stream.V m c Cert.KernelIdeal.main_arg1), ?_, ?_⟩
  · exact (θ_run (Cert.KernelIdeal.defs (F := Ideal)) _ _).mono
      (fun _ h c => ⟨((h c).1 9).trans (Cert.KernelIdeal.StreamValue.final m c),
        ((h c).1 0).trans (((Cert.KernelIdeal.Stream.dats m 0 c).arrAt_in 0 rfl _).trans (Cert.KernelIdeal.Stream.A_eq m c 0)),
        ((h c).1 1).trans (((Cert.KernelIdeal.Stream.dats m 0 c).arrAt_in 1 rfl _).trans (Cert.KernelIdeal.Stream.A_eq m c 1))⟩)
      (Cert.KernelIdeal.Stream.run_main m ρ)
  · refine (θ_run Cert.ReferenceIdeal.defs _ _).mono (fun _ h c => ⟨(h c).1.trans ?_, (h c).2⟩)
      (Cert.ReferenceIdeal.Value.run (F := Ideal) m' ρ')
    rw [(hagree c).1, (hagree c).2]
    rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
